-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2x8x2048x64 : Shape := ⟨5, ![3, 2, 8, 2048, 64]⟩
abbrev S_ : Shape := ⟨0, ![]⟩

class Facts : Prop where
  bcast_S_S3x2x8x2048x64 : S_.BroadcastsInDim S3x2x8x2048x64 (![] : Fin 0 → Fin S3x2x8x2048x64.rank)
  reducesTo_S3x2x8x2048x64_S_d0_1_2_3_4 : S3x2x8x2048x64.ReducesTo [0, 1, 2, 3, 4] S_
  h_S_ : 0 < S_.numel

variable [Facts]

def fn {F : FTy → Type} [FloatOps F] (main_arg0 : FVec F S3x2x8x2048x64 .f32) : IVec S_ 1 :=
  let main_v0 : FVec F S3x2x8x2048x64 .f32 := Host.absf main_arg0
  let main_cst : FVec F S_ .f32 := constant S_ .f32 0x7F800000#32
  let main_v1 : FVec F S3x2x8x2048x64 .f32 := broadcastInDim S3x2x8x2048x64 ![] bcast_S_S3x2x8x2048x64 main_cst
  let main_v2 : IVec S3x2x8x2048x64 1 := cmpf .olt main_v0 main_v1
  let main_c : IVec S_ 1 := constantI S_ 1 1#1
  let main_v3 : IVec S_ 1 := (fun x v => Host.reduce IntOp.andi x v reducesTo_S3x2x8x2048x64_S_d0_1_2_3_4 h_S_) main_v2 main_c
  main_v3
-- ==== Kernel.lean ====
abbrev S3x2x8x2048x64 : Shape := ⟨5, ![3, 2, 8, 2048, 64]⟩
abbrev S1x2x8x2048x64 : Shape := ⟨5, ![1, 2, 8, 2048, 64]⟩
abbrev S2x8x2048x64 : Shape := ⟨4, ![2, 8, 2048, 64]⟩
abbrev S16x2048x64 : Shape := ⟨3, ![16, 2048, 64]⟩
abbrev S1x1024x64 : Shape := ⟨3, ![1, 1024, 64]⟩
abbrev S1x2048x64 : Shape := ⟨3, ![1, 2048, 64]⟩
abbrev S2048x64 : Shape := ⟨2, ![2048, 64]⟩
abbrev S2048x128 : Shape := ⟨2, ![2048, 128]⟩
abbrev S64x128 : Shape := ⟨2, ![64, 128]⟩
abbrev S8x128 : Shape := ⟨2, ![8, 128]⟩
abbrev S2048x1 : Shape := ⟨2, ![2048, 1]⟩
abbrev S2048x63 : Shape := ⟨2, ![2048, 63]⟩
abbrev S64 : Shape := ⟨1, ![64]⟩
abbrev S1x64 : Shape := ⟨2, ![1, 64]⟩
abbrev S1x1 : Shape := ⟨2, ![1, 1]⟩
abbrev S1x63 : Shape := ⟨2, ![1, 63]⟩
abbrev S1024x64 : Shape := ⟨2, ![1024, 64]⟩
abbrev S1024x2048 : Shape := ⟨2, ![1024, 2048]⟩
abbrev S1024x128 : Shape := ⟨2, ![1024, 128]⟩
abbrev S1x128 : Shape := ⟨2, ![1, 128]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S3x2x8x2048x64, .f32⟩
  | .hbm, ⟨1, _⟩ => ⟨S1x2x8x2048x64, .f32⟩
  | .hbm, ⟨2, _⟩ => ⟨S2x8x2048x64, .f32⟩
  | .hbm, ⟨3, _⟩ => ⟨S1x2x8x2048x64, .f32⟩
  | .hbm, ⟨4, _⟩ => ⟨S2x8x2048x64, .f32⟩
  | .hbm, ⟨5, _⟩ => ⟨S1x2x8x2048x64, .f32⟩
  | .hbm, ⟨6, _⟩ => ⟨S2x8x2048x64, .f32⟩
  | .hbm, ⟨7, _⟩ => ⟨S16x2048x64, .f32⟩
  | .hbm, ⟨8, _⟩ => ⟨S16x2048x64, .f32⟩
  | .hbm, ⟨9, _⟩ => ⟨S16x2048x64, .f32⟩
  | .hbm, ⟨10, _⟩ => ⟨S16x2048x64, .f32⟩
  | .hbm, ⟨11, _⟩ => ⟨S2x8x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S2048x64, .bf16⟩
  | .local _ .vmem, ⟨9, _⟩ => ⟨S2048x128, .bf16⟩
  | .local _ .vmem, ⟨10, _⟩ => ⟨S64x128, .f32⟩
  | .local _ .vmem, ⟨11, _⟩ => ⟨S8x128, .f32⟩
  | _, _ => ⟨S3x2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S3x2x8x2048x64_S1x2x8x2048x64_0_0_0_0_0 : S3x2x8x2048x64.Slices ![0, 0, 0, 0, 0] S1x2x8x2048x64
  shapeCasts_S1x2x8x2048x64_S2x8x2048x64 : S1x2x8x2048x64.ShapeCasts S2x8x2048x64
  slices_S3x2x8x2048x64_S1x2x8x2048x64_1_0_0_0_0 : S3x2x8x2048x64.Slices ![1, 0, 0, 0, 0] S1x2x8x2048x64
  slices_S3x2x8x2048x64_S1x2x8x2048x64_2_0_0_0_0 : S3x2x8x2048x64.Slices ![2, 0, 0, 0, 0] S1x2x8x2048x64
  shapeCasts_S2x8x2048x64_S16x2048x64 : S2x8x2048x64.ShapeCasts S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2048x128_S2048x1_0_0 : ∀ a, (![0, 0] : Fin 2 → Nat) a + S2048x1.size a ≤ S2048x128.size a
  h_S2048x1 : 0 < S2048x1.numel
  shapeCasts_S2048x1_S2048x1 : S2048x1.ShapeCasts S2048x1
  packedbf16_S2048x128_S2048x1_0_0 : (Rect.unit (s := S2048x128) ![0, 0] S2048x1.size inb_S2048x128_S2048x1_0_0).PackedRows (EltTy.packing .bf16)
  inb_S2048x128_S2048x64_0_1 : ∀ a, (![0, 1] : Fin 2 → Nat) a + S2048x64.size a ≤ S2048x128.size a
  packedbf16_S2048x128_S2048x64_0_1 : (Rect.unit (s := S2048x128) ![0, 1] S2048x64.size inb_S2048x128_S2048x64_0_1).PackedRows (EltTy.packing .bf16)
  inb_S2048x128_S2048x63_0_65 : ∀ a, (![0, 65] : Fin 2 → Nat) a + S2048x63.size a ≤ S2048x128.size a
  h_S2048x63 : 0 < S2048x63.numel
  shapeCasts_S2048x63_S2048x63 : S2048x63.ShapeCasts S2048x63
  packedbf16_S2048x128_S2048x63_0_65 : (Rect.unit (s := S2048x128) ![0, 65] S2048x63.size inb_S2048x128_S2048x63_0_65).PackedRows (EltTy.packing .bf16)
  inb_S2048x128_S2048x128_0_0 : ∀ a, (![0, 0] : Fin 2 → Nat) a + S2048x128.size a ≤ S2048x128.size a
  h_S2048x128 : 0 < S2048x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S2048x64_S64 : S2048x64.Reduces [0] S64
  shapeCasts_S64_S1x64 : S64.ShapeCasts S1x64
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x64_0_1 : ∀ a, (![0, 1] : Fin 2 → Nat) a + S1x64.size a ≤ S8x128.size a
  h_S1x64 : 0 < S1x64.numel
  shapeCasts_S1x64_S1x64 : S1x64.ShapeCasts S1x64
  inb_S8x128_S1x63_0_65 : ∀ a, (![0, 65] : Fin 2 → Nat) a + S1x63.size a ≤ S8x128.size a
  h_S1x63 : 0 < S1x63.numel
  shapeCasts_S1x63_S1x63 : S1x63.ShapeCasts S1x63
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S8x128_S1x128_0_0 : ∀ a, (![0, 0] : Fin 2 → Nat) a + S1x128.size a ≤ S8x128.size a
  h_S1x128 : 0 < S1x128.numel
  broadcasts_S1x128_S1024x128 : S1x128.Broadcasts S1024x128
  slices_S1024x128_o0_0_S1024x1 : S1024x128.Slices ![0, 0] S1024x1
  slices_S1024x128_o0_1_S1024x64 : S1024x128.Slices ![0, 1] S1024x64
  broadcasts_S1024x1_S1024x64 : S1024x1.Broadcasts S1024x64
  shapeCasts_S1024x64_S1x1024x64 : S1024x64.ShapeCasts S1x1024x64
  shapeCasts_S16x2048x64_S2x8x2048x64 : S16x2048x64.ShapeCasts S2x8x2048x64
  dot_S2048x64_S2048x128_S64x128_0_0_1_1_n_n_wf : DotDims.WF S2048x64 S2048x128 S64x128 [0] [0] [1] [1] [] []
  dot_S1024x64_S2048x64_S1024x2048_1_1_0_0_n_n_wf : DotDims.WF S1024x64 S2048x64 S1024x2048 [1] [1] [0] [0] [] []
  dot_S1024x2048_S2048x128_S1024x128_1_0_0_1_n_n_wf : DotDims.WF S1024x2048 S2048x128 S1024x128 [1] [0] [0] [1] [] []
  dot_S1024x64_S64x128_S1024x128_1_0_0_1_n_n_wf : DotDims.WF S1024x64 S64x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf

abbrev win0_0 : Pipeline.Window sig grid0 :=
  Pipeline.Window.ofSpec (Memref.whole main_v6) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x2x8x2048x64 : Shape := ⟨5, ![3, 2, 8, 2048, 64]⟩
abbrev S1x2x8x2048x64 : Shape := ⟨5, ![1, 2, 8, 2048, 64]⟩
abbrev S2x8x2048x64 : Shape := ⟨4, ![2, 8, 2048, 64]⟩
abbrev S_ : Shape := ⟨0, ![]⟩
abbrev S2x8x2048x1 : Shape := ⟨4, ![2, 8, 2048, 1]⟩
abbrev S2x8x2048x65 : Shape := ⟨4, ![2, 8, 2048, 65]⟩
abbrev S2x8x2048x64x1 : Shape := ⟨5, ![2, 8, 2048, 64, 1]⟩
abbrev S2x8x2048x1x64 : Shape := ⟨5, ![2, 8, 2048, 1, 64]⟩
abbrev S2x8x2048x64x64 : Shape := ⟨5, ![2, 8, 2048, 64, 64]⟩
abbrev S2x8x2048x4096 : Shape := ⟨4, ![2, 8, 2048, 4096]⟩
abbrev S2x8x4096x65 : Shape := ⟨4, ![2, 8, 4096, 65]⟩
abbrev S2x8x64x65 : Shape := ⟨4, ![2, 8, 64, 65]⟩
abbrev S2x8x65 : Shape := ⟨3, ![2, 8, 65]⟩
abbrev S2x8x1x65 : Shape := ⟨4, ![2, 8, 1, 65]⟩

abbrev nBuf : Space → Nat
  | .hbm => 39
  | .vmem => 0
  | .smem => 0
  | _ => 0

abbrev bufTy : (tb : Table) → Fin (tcTables nBuf tb) → BufTy
  | .hbm, ⟨0, _⟩ => ⟨S3x2x8x2048x64, .f32⟩
  | .hbm, ⟨1, _⟩ => ⟨S1x2x8x2048x64, .f32⟩
  | .hbm, ⟨2, _⟩ => ⟨S2x8x2048x64, .f32⟩
  | .hbm, ⟨3, _⟩ => ⟨S1x2x8x2048x64, .f32⟩
  | .hbm, ⟨4, _⟩ => ⟨S2x8x2048x64, .f32⟩
  | .hbm, ⟨5, _⟩ => ⟨S1x2x8x2048x64, .f32⟩
  | .hbm, ⟨6, _⟩ => ⟨S2x8x2048x64, .f32⟩
  | .hbm, ⟨7, _⟩ => ⟨S_, .f32⟩
  | .hbm, ⟨8, _⟩ => ⟨S2x8x2048x1, .f32⟩
  | .hbm, ⟨9, _⟩ => ⟨S2x8x2048x65, .f32⟩
  | .hbm, ⟨10, _⟩ => ⟨S2x8x2048x64x1, .f32⟩
  | .hbm, ⟨11, _⟩ => ⟨S2x8x2048x1x64, .f32⟩
  | .hbm, ⟨12, _⟩ => ⟨S2x8x2048x64x64, .f32⟩
  | .hbm, ⟨13, _⟩ => ⟨S2x8x2048x64x64, .f32⟩
  | .hbm, ⟨14, _⟩ => ⟨S2x8x2048x64x64, .f32⟩
  | .hbm, ⟨15, _⟩ => ⟨S2x8x2048x4096, .f32⟩
  | .hbm, ⟨16, _⟩ => ⟨S2x8x4096x65, .f32⟩
  | .hbm, ⟨17, _⟩ => ⟨S2x8x64x65, .f32⟩
  | .hbm, ⟨18, _⟩ => ⟨S2x8x2048x64x1, .f32⟩
  | .hbm, ⟨19, _⟩ => ⟨S2x8x2048x1x64, .f32⟩
  | .hbm, ⟨20, _⟩ => ⟨S2x8x2048x64x64, .f32⟩
  | .hbm, ⟨21, _⟩ => ⟨S2x8x2048x64x64, .f32⟩
  | .hbm, ⟨22, _⟩ => ⟨S2x8x2048x64x64, .f32⟩
  | .hbm, ⟨23, _⟩ => ⟨S2x8x2048x4096, .f32⟩
  | .hbm, ⟨24, _⟩ => ⟨S2x8x2048x65, .f32⟩
  | .hbm, ⟨25, _⟩ => ⟨S_, .f32⟩
  | .hbm, ⟨26, _⟩ => ⟨S2x8x2048x65, .f32⟩
  | .hbm, ⟨27, _⟩ => ⟨S2x8x2048x65, .f32⟩
  | .hbm, ⟨28, _⟩ => ⟨S2x8x2048x65, .f32⟩
  | .hbm, ⟨29, _⟩ => ⟨S2x8x2048x65, .f32⟩
  | .hbm, ⟨30, _⟩ => ⟨S_, .f32⟩
  | .hbm, ⟨31, _⟩ => ⟨S2x8x65, .f32⟩
  | .hbm, ⟨32, _⟩ => ⟨S2x8x1x65, .f32⟩
  | .hbm, ⟨33, _⟩ => ⟨S2x8x2048x65, .f32⟩
  | .hbm, ⟨34, _⟩ => ⟨S2x8x2048x65, .f32⟩
  | .hbm, ⟨35, _⟩ => ⟨S2x8x2048x1, .f32⟩
  | .hbm, ⟨36, _⟩ => ⟨S2x8x2048x64, .f32⟩
  | .hbm, ⟨37, _⟩ => ⟨S2x8x2048x64, .f32⟩
  | .hbm, ⟨38, _⟩ => ⟨S2x8x2048x64, .f32⟩
  | _, _ => ⟨S3x2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst_0 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_1 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]

class Facts₀ : Prop where
  slices_S3x2x8x2048x64_S1x2x8x2048x64_0_0_0_0_0 : S3x2x8x2048x64.Slices ![0, 0, 0, 0, 0] S1x2x8x2048x64
  shapeCasts_S1x2x8x2048x64_S2x8x2048x64 : S1x2x8x2048x64.ShapeCasts S2x8x2048x64
  slices_S3x2x8x2048x64_S1x2x8x2048x64_1_0_0_0_0 : S3x2x8x2048x64.Slices ![1, 0, 0, 0, 0] S1x2x8x2048x64
  slices_S3x2x8x2048x64_S1x2x8x2048x64_2_0_0_0_0 : S3x2x8x2048x64.Slices ![2, 0, 0, 0, 0] S1x2x8x2048x64
  bcast_S_S2x8x2048x1 : S_.BroadcastsInDim S2x8x2048x1 (![] : Fin 0 → Fin S2x8x2048x1.rank)
  concatenates_S2x8x2048x1_S2x8x2048x64_S2x8x2048x65_d3 : Shape.Concatenates [S2x8x2048x1, S2x8x2048x64] S2x8x2048x65 3
  bcast_S2x8x2048x64_S2x8x2048x64x1_0_1_2_3 : S2x8x2048x64.BroadcastsInDim S2x8x2048x64x1 (![0, 1, 2, 3] : Fin 4 → Fin S2x8x2048x64x1.rank)
  bcast_S2x8x2048x64_S2x8x2048x1x64_0_1_2_4 : S2x8x2048x64.BroadcastsInDim S2x8x2048x1x64 (![0, 1, 2, 4] : Fin 4 → Fin S2x8x2048x1x64.rank)
  bcast_S2x8x2048x64x1_S2x8x2048x64x64_0_1_2_3_4 : S2x8x2048x64x1.BroadcastsInDim S2x8x2048x64x64 (![0, 1, 2, 3, 4] : Fin 5 → Fin S2x8x2048x64x64.rank)
  bcast_S2x8x2048x1x64_S2x8x2048x64x64_0_1_2_3_4 : S2x8x2048x1x64.BroadcastsInDim S2x8x2048x64x64 (![0, 1, 2, 3, 4] : Fin 5 → Fin S2x8x2048x64x64.rank)
  shapeCasts_S2x8x2048x64x64_S2x8x2048x4096 : S2x8x2048x64x64.ShapeCasts S2x8x2048x4096
  bcast_S_S2x8x2048x65 : S_.BroadcastsInDim S2x8x2048x65 (![] : Fin 0 → Fin S2x8x2048x65.rank)
  reducesTo_S2x8x2048x65_S2x8x65_d2 : S2x8x2048x65.ReducesTo [2] S2x8x65
  h_S_ : 0 < S_.numel
  bcast_S2x8x65_S2x8x1x65_0_1_3 : S2x8x65.BroadcastsInDim S2x8x1x65 (![0, 1, 3] : Fin 3 → Fin S2x8x1x65.rank)
  bcast_S2x8x1x65_S2x8x2048x65_0_1_2_3 : S2x8x1x65.BroadcastsInDim S2x8x2048x65 (![0, 1, 2, 3] : Fin 4 → Fin S2x8x2048x65.rank)
  slices_S2x8x2048x65_S2x8x2048x1_0_0_0_0 : S2x8x2048x65.Slices ![0, 0, 0, 0] S2x8x2048x1
  slices_S2x8x2048x65_S2x8x2048x64_0_0_0_1 : S2x8x2048x65.Slices ![0, 0, 0, 1] S2x8x2048x64
  bcast_S2x8x2048x1_S2x8x2048x64_0_1_2_3 : S2x8x2048x1.BroadcastsInDim S2x8x2048x64 (![0, 1, 2, 3] : Fin 4 → Fin S2x8x2048x64.rank)
  dot_S2x8x2048x4096_S2x8x2048x65_S2x8x4096x65_2_2_3_3_01_01_wf : DotDims.WF S2x8x2048x4096 S2x8x2048x65 S2x8x4096x65 [2] [2] [3] [3] [0, 1] [0, 1]
  dot_S2x8x2048x64_S2x8x2048x65_S2x8x64x65_2_2_3_3_01_01_wf : DotDims.WF S2x8x2048x64 S2x8x2048x65 S2x8x64x65 [2] [2] [3] [3] [0, 1] [0, 1]
  dot_S2x8x2048x4096_S2x8x4096x65_S2x8x2048x65_3_2_2_3_01_01_wf : DotDims.WF S2x8x2048x4096 S2x8x4096x65 S2x8x2048x65 [3] [2] [2] [3] [0, 1] [0, 1]
  dot_S2x8x2048x64_S2x8x64x65_S2x8x2048x65_3_2_2_3_01_01_wf : DotDims.WF S2x8x2048x64 S2x8x64x65 S2x8x2048x65 [3] [2] [2] [3] [0, 1] [0, 1]

variable [Facts₀]

def dot_S2x8x2048x4096_S2x8x2048x65_S2x8x4096x65_2_2_3_3_01_01 : DotDims S2x8x2048x4096 S2x8x2048x65 S2x8x4096x65 where
  lhsContracting := [2]
  rhsContracting := [2]
  lhsNonContracting := [3]
  rhsNonContracting := [3]
  lhsBatch := [0, 1]
  rhsBatch := [0, 1]
  wf := dot_S2x8x2048x4096_S2x8x2048x65_S2x8x4096x65_2_2_3_3_01_01_wf
def dot_S2x8x2048x64_S2x8x2048x65_S2x8x64x65_2_2_3_3_01_01 : DotDims S2x8x2048x64 S2x8x2048x65 S2x8x64x65 where
  lhsContracting := [2]
  rhsContracting := [2]
  lhsNonContracting := [3]
  rhsNonContracting := [3]
  lhsBatch := [0, 1]
  rhsBatch := [0, 1]
  wf := dot_S2x8x2048x64_S2x8x2048x65_S2x8x64x65_2_2_3_3_01_01_wf
def dot_S2x8x2048x4096_S2x8x4096x65_S2x8x2048x65_3_2_2_3_01_01 : DotDims S2x8x2048x4096 S2x8x4096x65 S2x8x2048x65 where
  lhsContracting := [3]
  rhsContracting := [2]
  lhsNonContracting := [2]
  rhsNonContracting := [3]
  lhsBatch := [0, 1]
  rhsBatch := [0, 1]
  wf := dot_S2x8x2048x4096_S2x8x4096x65_S2x8x2048x65_3_2_2_3_01_01_wf
def dot_S2x8x2048x64_S2x8x64x65_S2x8x2048x65_3_2_2_3_01_01 : DotDims S2x8x2048x64 S2x8x64x65 S2x8x2048x65 where
  lhsContracting := [3]
  rhsContracting := [2]
  lhsNonContracting := [2]
  rhsNonContracting := [3]
  lhsBatch := [0, 1]
  rhsBatch := [0, 1]
  wf := dot_S2x8x2048x64_S2x8x64x65_S2x8x2048x65_3_2_2_3_01_01_wf

class Facts : Prop extends Facts₀ where

variable [Facts]
-- ==== Proof.KBShared.lean ====
/-
  What the two runs of the kernel body share. The grid is 16 × 2: sixteen (batch, head) pairs, and for each the two
  halves of the query rows. A point is the FIRST of its pair when its second coordinate is zero; there the body fills
  its four scratch buffers from the pair's key and value blocks, and at both points of the pair it reads them.
-/
import proofs.«129592_j25984552141257_2_alg».proof.Proof.Gen.Kernel.Frame
import proofs.«129592_j25984552141257_2_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the query-half coordinate is zero. -/
abbrev firstOfPair (i : grid0.Coords) : Prop :=
  (Scalar.cmpi .ne (Scalar.extui (Scalar.cmpi .eq (BitVec.ofNat 32 (i 1).val) 0#32)) 0#32) = 1#1

/-- Over the grid's 32 points it holds exactly at the even ones. -/
theorem firstOfPair_iff : ∀ t : Fin cfg0.N, firstOfPair (grid0.coords t) ↔ t.val % 2 = 0 :=
  (by decide +kernel : ∀ t : Fin grid0.N, firstOfPair (grid0.coords t) ↔ t.val % 2 = 0)

/-- The staging memref each window is on at point `t`, and that it is a whole buffer. -/
abbrev stg0 (t : Fin cfg0.N) : Memref sig .tc .vmem S1x1024x64 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S1x2048x64 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S1x2048x64 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x1024x64 .f32 := win0_3.stage (cfg0.slots t 3)
abbrev stg3_whole (t : Fin cfg0.N) : (stg3 t).IsWhole := hstage0_3 ((cfg0.slots t 3).cast nbuf0_3)

/-- The four scratch buffers: the keys, the values with a column of ones in front, their product, the bias row. -/
abbrev scrK : Memref sig .tc .vmem S2048x64 .bf16 := Memref.whole cc0_scratch0
abbrev scrV : Memref sig .tc .vmem S2048x128 .bf16 := Memref.whole cc0_scratch1
abbrev scrKV : Memref sig .tc .vmem S64x128 .f32 := Memref.whole cc0_scratch2
abbrev scrB : Memref sig .tc .vmem S8x128 .f32 := Memref.whole cc0_scratch3

/-- The launch's invariant spelt out: each scratch buffer owned whole at some contents, and the generator register. -/
theorem restInv_eq (c : Dev nD) :
    (Pipeline.ΦA spec0 c : sProp 𝕄)
      = iprop(iprop((∃ d, owns (c : Thread nD τ) scrK fullShare d) ∗ (∃ d, owns (c : Thread nD τ) scrV fullShare d) ∗ (∃ d, owns (c : Thread nD τ) scrKV fullShare d) ∗ (∃ d, owns (c : Thread nD τ) scrB fullShare d)) ∗ (∃ r, prngReg c r)) := by
  unfold Pipeline.ΦA; rw [scopedRest0_eq]; simp only [scrK, scrV, scrKV, scrB, owns_whole]; try rfl

end Cert.Kernel.Gen

end
-- ==== Proof.KBSecond.lean ====
/-
  The kernel body at the SECOND point of a pair (the branch not taken): it reads the query block and the four scratch
  buffers, and stores one piece, the whole output block. The run finds that piece.
-/
import proofs.«129592_j25984552141257_2_alg».proof.Proof.KBShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body leaves in the output's staging buffer when the branch is not taken, with the proof that, the
    inputs and the scratch buffers held at named contents, the body runs and hands everything back: the inputs and the
    scratch as they were, the output's buffer with the piece written. -/
noncomputable def runSecond (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) :
    { L3 : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare s0 ∗ owns (c : Thread nD τ) arg7 fullShare s1 ∗ owns (c : Thread nD τ) arg8 fullShare s2 ∗ owns (c : Thread nD τ) arg9 fullShare s3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare s0 ∗ owns (c : Thread nD τ) arg7 fullShare s1 ∗ owns (c : Thread nD τ) arg8 fullShare s2 ∗ owns (c : Thread nD τ) arg9 fullShare s3) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    iexists _; isplitr; · ipureintro; exact harg9.read_unread _
    iexact HS3

end Cert.Kernel.Gen

end
-- ==== Proof.KBFirst.lean ====
/-
  The kernel body at the FIRST point of a pair (the branch taken): it fills the four scratch buffers from the key and
  value blocks, then does what the second point does. The run finds the pieces each written buffer ends with.
-/
import proofs.«129592_j25984552141257_2_alg».proof.Proof.KBSecond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output's staging buffer and in the four scratch buffers when the branch is
    taken, with the proof that, every buffer held at named contents, the body runs and hands the inputs back as they
    were and each written buffer with its pieces written over what it held. -/
noncomputable def runFirst (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) :
    Σ' (L3 : List (View.Piece (Elt F) S1x1024x64 .f32)) (LS0 : List (View.Piece (Elt F) S2048x64 .bf16)) (LS1 : List (View.Piece (Elt F) S2048x128 .bf16))
      (LS2 : List (View.Piece (Elt F) S64x128 .f32)), { LS3 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ owns (c : Thread nD τ) arg6 fullShare s0 ∗ owns (c : Thread nD τ) arg7 fullShare s1 ∗ owns (c : Thread nD τ) arg8 fullShare s2 ∗ owns (c : Thread nD τ) arg9 fullShare s3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.Kernel.Gen

end
-- ==== Proof.KBScratch.lean ====
/-
  What the first point of a pair leaves in the scratch buffers, and the output block of either point, as pure terms
  of the pair's key block x1 and value block x2 and the point's query block x0.

  The value scratch is stored in three column pieces: a column of ones, the 64 value columns, 63 columns of zeros.
  The bias scratch has only its row 0 stored, in three pieces: the number of rows, the 64 column sums of the values,
  63 zeros; the body reads back that row alone.
-/
import proofs.«129592_j25984552141257_2_alg».proof.Proof.Gen.Kernel.Skeleton
import Idealize.ShloMosaic.Lib.Pipeline.FrameBody
import Idealize.ShloMosaic.Lib.Pipeline.Value

noncomputable section

namespace Cert.Kernel.Gen

open Idealize.ShloMosaic Idealize.SL.Sem

variable {F : FTy → Type} [FloatOps F]

/-- The value scratch after its three column stores (last store first): [ones | values | zeros]. -/
def valsExt (x2 : Vec F S1x2048x64 .f32) : Vec F S2048x128 .bf16 :=
  View.canon (Val := Elt F)
    [ (⟨Rect.unit (s := S2048x128) ![0, 65] S2048x63.size inb_S2048x128_S2048x63_0_65, k0_pay10 (F := F)⟩ : View.Piece (Elt F) S2048x128 .bf16),
      ⟨Rect.unit (s := S2048x128) ![0, 1] S2048x64.size inb_S2048x128_S2048x64_0_1, k0_pay9 x2⟩,
      ⟨Rect.unit (s := S2048x128) ![0, 0] S2048x1.size inb_S2048x128_S2048x1_0_0, k0_pay8 (F := F)⟩ ]

/-- The bias scratch where its three row-0 stores reach (last store first): [rows | column sums | zeros] in row 0. -/
def biasFull (x2 : Vec F S1x2048x64 .f32) : Vec F S8x128 .f32 :=
  View.canon (Val := Elt F)
    [ (⟨Rect.unit (s := S8x128) ![0, 65] S1x63.size inb_S8x128_S1x63_0_65, k0_pay3 (F := F)⟩ : View.Piece (Elt F) S8x128 .f32),
      ⟨Rect.unit (s := S8x128) ![0, 1] S1x64.size inb_S8x128_S1x64_0_1, k0_pay2 (k0_pay12 x2)⟩,
      ⟨Rect.unit (s := S8x128) ![0, 0] S1x1.size inb_S8x128_S1x1_0_0, k0_pay1 (k0_pay13 (F := F))⟩ ]

/-- The rectangle the body reads the bias through: row 0, all 128 columns. -/
abbrev biasRect : Rect S8x128 := Rect.unit (s := S8x128) ![0, 0] S1x128.size inb_S8x128_S1x128_0_0

/-- The bias row the body reads back. -/
def biasRow (x2 : Vec F S1x2048x64 .f32) : Vec F S1x128 .f32 := View.ld (biasFull x2) biasRect

/-- The output block of a point: the body's one output payload over the point's query block and the scratch contents
    the pair's first point leaves. -/
def outBlock (x0 : Vec F S1x1024x64 .f32) (x1 x2 : Vec F S1x2048x64 .f32) : Vec F S1x1024x64 .f32 :=
  k0_pay4 x0 (k0_pay6 x1) (valsExt x2) (k0_pay11 x1 (valsExt x2)) (biasRow x2)

end Cert.Kernel.Gen

end
-- ==== Proof.KBPieces.lean ====
/-
  What the found pieces read back as. Whatever a written buffer held before, after the body's stores it reads: the
  output block, `outBlock` of the point's query block and the pair's key and value blocks; the key scratch, the keys;
  the value scratch, [ones | values | zeros]; the product scratch, keysᵀ · [ones | values | zeros]; and row 0 of the
  bias scratch, [rows | column sums | zeros]. At the second point the output block is the same payload over whatever
  the scratch buffers hold.
-/
import proofs.«129592_j25984552141257_2_alg».proof.Proof.KBFirst
import proofs.«129592_j25984552141257_2_alg».proof.Proof.KBScratch
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0, 0] : Fin 3 → Nat) = fun _ => 0 := funext fun a => by fin_cases a <;> rfl
theorem zeros2 : (![0, 0] : Fin 2 → Nat) = fun _ => 0 := funext fun a => by fin_cases a <;> rfl

/-- A load of a whole buffer held at `x`, through the whole rectangle, reads `x`. -/
theorem readAt_whole_unread {s : Shape} {e : EltTy} (a : Memref sig .tc .vmem s e) (ha : a.IsWhole) {off : Fin s.rank → Nat}
    (h : off = fun _ => 0) (inb : ∀ a, off a + s.size a ≤ s.size a) (x : s.Idx → Elt F e) :
    View.readAt (Elt F) a.view (Rect.unit off s.size inb).toLoadRect (ha.unread x) = x := by
  rw [View.readAt_eq_ld, ha.read_unread]; exact View.ld_unit_zero h inb x

/-- After stores, a load through the whole rectangle reads what the stores leave. -/
theorem readCov_whole {s : Shape} {e : EltTy} (v : View sig .tc .vmem s e) (L : List (View.Piece (Elt F) s e)) {off : Fin s.rank → Nat}
    (h : off = fun _ => 0) (inb : ∀ a, off a + s.size a ≤ s.size a) :
    v.readCov L (Rect.unit off s.size inb).toLoadRect = View.canon L := by
  rw [View.readCov_eq_canon']; exact View.ld_unit_zero h inb (View.canon L)

/-- After stores, a load through any rectangle reads what the stores leave, there. -/
theorem readCov_rect {s : Shape} {e : EltTy} (v : View sig .tc .vmem s e) (L : List (View.Piece (Elt F) s e)) (r : Rect s) :
    v.readCov L r.toLoadRect = View.ld (View.canon L) r := by
  rw [View.readCov_eq_canon']

/-! ## The second point -/

theorem second_cover (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) (y : S1x1024x64.Idx) :
    ∃ pc ∈ (runSecond c i arg2 harg2 arg3 harg3 arg4 harg4 arg5 harg5 arg6 harg6 arg7 harg7 arg8 harg8 arg9 harg9 hc0 x0 x1 x2 s0 s1 s2 s3).1, y ∈ pc.1.set :=
  View.cover_of_tiledL _ S1x1024x64.size (by sl_kernel_rfl) y

/-- The output block at the second point: the payload over the query block and the scratch contents. -/
theorem second_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) (f : arg5.view.ty.Contents (Elt F)) :
    arg5.view.read (Elt F) (arg5.view.writes (Elt F) f (runSecond c i arg2 harg2 arg3 harg3 arg4 harg4 arg5 harg5 arg6 harg6 arg7 harg7 arg8 harg8 arg9 harg9 hc0 x0 x1 x2 s0 s1 s2 s3).1)
      = k0_pay4 x0 s0 s1 s2 (View.ld s3 biasRect) := by
  rw [View.read_writes_eq_canon _ _ _ (second_cover c i arg2 harg2 arg3 harg3 arg4 harg4 arg5 harg5 arg6 harg6 arg7 harg7 arg8 harg8 arg9 harg9 hc0 x0 x1 x2 s0 s1 s2 s3)]
  unfold runSecond
  dsimp only
  rw [View.canon_unit_zero zeros3]
  rw [readAt_whole_unread arg2 harg2 zeros3, readAt_whole_unread arg6 harg6 zeros2, readAt_whole_unread arg7 harg7 zeros2,
    readAt_whole_unread arg8 harg8 zeros2, View.readAt_eq_ld, harg9.read_unread]

/-! ## The first point -/

theorem first_cover_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S1x1024x64.Idx) :
    ∃ pc ∈ (runFirst c i arg2 harg2 arg3 harg3 arg4 harg4 arg5 harg5 arg6 harg6 arg7 harg7 arg8 harg8 arg9 harg9 hc0 x0 x1 x2 d3 s0 s1 s2 s3).1, y ∈ pc.1.set :=
  View.cover_of_tiledL _ S1x1024x64.size (by sl_kernel_rfl) y

theorem first_cover_k (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S2048x64.Idx) :
    ∃ pc ∈ (runFirst c i arg2 harg2 arg3 harg3 arg4 harg4 arg5 harg5 arg6 harg6 arg7 harg7 arg8 harg8 arg9 harg9 hc0 x0 x1 x2 d3 s0 s1 s2 s3).2.1, y ∈ pc.1.set :=
  View.cover_of_tiledL _ S2048x64.size (by sl_kernel_rfl) y

theorem first_cover_kv (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S64x128.Idx) :
    ∃ pc ∈ (runFirst c i arg2 harg2 arg3 harg3 arg4 harg4 arg5 harg5 arg6 harg6 arg7 harg7 arg8 harg8 arg9 harg9 hc0 x0 x1 x2 d3 s0 s1 s2 s3).2.2.2.1, y ∈ pc.1.set :=
  View.cover_of_tiledL _ S64x128.size (by sl_kernel_rfl) y

/-- The key scratch reads the keys. -/
theorem first_k (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg6.view.ty.Contents (Elt F)) :
    arg6.view.read (Elt F) (arg6.view.writes (Elt F) f (runFirst c i arg2 harg2 arg3 harg3 arg4 harg4 arg5 harg5 arg6 harg6 arg7 harg7 arg8 harg8 arg9 harg9 hc0 x0 x1 x2 d3 s0 s1 s2 s3).2.1) = k0_pay6 x1 := by
  rw [View.read_writes_eq_canon _ _ _ (first_cover_k c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros2, readAt_whole_unread arg3 harg3 zeros3]

/-- The product scratch reads keysᵀ · [ones | values | zeros]. -/
theorem first_kv (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hc0 x0 x1 x2 d3 s0 s1 s2 s3).2.2.2.1) = k0_pay11 x1 (valsExt x2) := by
  rw [View.read_writes_eq_canon _ _ _ (first_cover_kv c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros2, readAt_whole_unread arg3 harg3 zeros3, readCov_whole arg7.view _ zeros2, readAt_whole_unread arg4 harg4 zeros3]
  rfl

/-- The output block at the first point. -/
theorem first_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg5.view.ty.Contents (Elt F)) :
    arg5.view.read (Elt F) (arg5.view.writes (Elt F) f (runFirst c i arg2 harg2 arg3 harg3 arg4 harg4 arg5 harg5 arg6 harg6 arg7 harg7 arg8 harg8 arg9 harg9 hc0 x0 x1 x2 d3 s0 s1 s2 s3).1) = outBlock x0 x1 x2 := by
  rw [View.read_writes_eq_canon _ _ _ (first_cover_out c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros3]
  simp only [readAt_whole_unread arg2 harg2 zeros3, readAt_whole_unread arg3 harg3 zeros3, readAt_whole_unread arg4 harg4 zeros3,
    View.readCov_unit_zero arg6.view zeros2, View.readCov_unit_zero arg8.view zeros2, readCov_whole arg7.view _ zeros2, readCov_rect arg9.view]
  rfl

theorem first_cover_v (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S2048x128.Idx) :
    ∃ pc ∈ (runFirst c i arg2 harg2 arg3 harg3 arg4 harg4 arg5 harg5 arg6 harg6 arg7 harg7 arg8 harg8 arg9 harg9 hc0 x0 x1 x2 d3 s0 s1 s2 s3).2.2.1, y ∈ pc.1.set :=
  View.cover_of_tiledBy _ ![2048, 1] (by sl_kernel_rfl) y

/-- The value scratch reads [ones | values | zeros]. -/
theorem first_v (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hc0 x0 x1 x2 d3 s0 s1 s2 s3).2.2.1) = valsExt x2 := by
  rw [View.read_writes_eq_canon _ _ _ (first_cover_v c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [readAt_whole_unread arg4 harg4 zeros3]
  rfl

/-- Row 0 of an [8,128] buffer is covered by three pieces of that row: column 0, columns 1 to 64, columns 65 to 127. -/
theorem row0_cover (w65 : (Rect.unit (s := S8x128) ![0, 65] S1x63.size inb_S8x128_S1x63_0_65).shape.Idx → Elt F .f32)
    (w1 : (Rect.unit (s := S8x128) ![0, 1] S1x64.size inb_S8x128_S1x64_0_1).shape.Idx → Elt F .f32)
    (w0 : (Rect.unit (s := S8x128) ![0, 0] S1x1.size inb_S8x128_S1x1_0_0).shape.Idx → Elt F .f32) (j : S1x128.Idx) :
    ∃ p ∈ ([⟨Rect.unit (s := S8x128) ![0, 65] S1x63.size inb_S8x128_S1x63_0_65, w65⟩,
              ⟨Rect.unit (s := S8x128) ![0, 1] S1x64.size inb_S8x128_S1x64_0_1, w1⟩,
              ⟨Rect.unit (s := S8x128) ![0, 0] S1x1.size inb_S8x128_S1x1_0_0, w0⟩] : List (View.Piece (Elt F) S8x128 .f32)),
      biasRect.idx j ∈ p.1.set := by
  have h0 : (j 0 : Nat) = 0 := Nat.lt_one_iff.mp (j 0).isLt
  have h1 : (j 1 : Nat) < 128 := (j 1).isLt
  have e0 : ((biasRect.idx j) 0 : Nat) = 0 := by show 0 + 1 * (j 0 : Nat) = 0; omega
  have e1 : ((biasRect.idx j) 1 : Nat) = (j 1 : Nat) := by show 0 + 1 * (j 1 : Nat) = _; omega
  by_cases hc0 : (j 1 : Nat) = 0
  · refine ⟨⟨Rect.unit (s := S8x128) ![0, 0] S1x1.size inb_S8x128_S1x1_0_0, w0⟩,
      List.mem_cons_of_mem _ (List.mem_cons_of_mem _ List.mem_cons_self), ?_⟩
    show biasRect.idx j ∈ (Rect.unit (s := S8x128) ![0, 0] S1x1.size inb_S8x128_S1x1_0_0).set
    rw [Rect.mem_set_unit]
    intro a
    match a with
    | ⟨0, _⟩ => show (0 : Nat) ≤ ((biasRect.idx j) 0 : Nat) ∧ ((biasRect.idx j) 0 : Nat) < 0 + 1; rw [e0]; omega
    | ⟨1, _⟩ => show (0 : Nat) ≤ ((biasRect.idx j) 1 : Nat) ∧ ((biasRect.idx j) 1 : Nat) < 0 + 1; rw [e1]; omega
  · by_cases hc1 : (j 1 : Nat) < 65
    · refine ⟨⟨Rect.unit (s := S8x128) ![0, 1] S1x64.size inb_S8x128_S1x64_0_1, w1⟩,
        List.mem_cons_of_mem _ List.mem_cons_self, ?_⟩
      show biasRect.idx j ∈ (Rect.unit (s := S8x128) ![0, 1] S1x64.size inb_S8x128_S1x64_0_1).set
      rw [Rect.mem_set_unit]
      intro a
      match a with
      | ⟨0, _⟩ => show (0 : Nat) ≤ ((biasRect.idx j) 0 : Nat) ∧ ((biasRect.idx j) 0 : Nat) < 0 + 1; rw [e0]; omega
      | ⟨1, _⟩ => show (1 : Nat) ≤ ((biasRect.idx j) 1 : Nat) ∧ ((biasRect.idx j) 1 : Nat) < 1 + 64; rw [e1]; omega
    · refine ⟨⟨Rect.unit (s := S8x128) ![0, 65] S1x63.size inb_S8x128_S1x63_0_65, w65⟩, List.mem_cons_self, ?_⟩
      show biasRect.idx j ∈ (Rect.unit (s := S8x128) ![0, 65] S1x63.size inb_S8x128_S1x63_0_65).set
      rw [Rect.mem_set_unit]
      intro a
      match a with
      | ⟨0, _⟩ => show (0 : Nat) ≤ ((biasRect.idx j) 0 : Nat) ∧ ((biasRect.idx j) 0 : Nat) < 0 + 1; rw [e0]; omega
      | ⟨1, _⟩ => show (65 : Nat) ≤ ((biasRect.idx j) 1 : Nat) ∧ ((biasRect.idx j) 1 : Nat) < 65 + 63; rw [e1]; omega

/-- Row 0 of the bias scratch reads [rows | column sums | zeros], whatever the buffer held. -/
theorem first_b (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg9.view.ty.Contents (Elt F)) :
    View.ld (arg9.view.read (Elt F) (arg9.view.writes (Elt F) f (runFirst c i arg2 harg2 arg3 harg3 arg4 harg4 arg5 harg5 arg6 harg6 arg7 harg7 arg8 harg8 arg9 harg9 hc0 x0 x1 x2 d3 s0 s1 s2 s3).2.2.2.2.1)) biasRect = biasRow x2 := by
  funext j
  show arg9.view.read (Elt F) (arg9.view.writes (Elt F) f _) (biasRect.idx j) = biasFull x2 (biasRect.idx j)
  unfold runFirst
  dsimp only
  sl_unfold_words
  rw [View.read_writes_apply_eq_canon _ f _ _ (row0_cover _ _ _ j), readAt_whole_unread arg4 harg4 zeros3]
  rfl

end Cert.Kernel.Gen

end
-- ==== Proof.KBData.lean ====
/-
  The pipeline's proof data and the body obligation.

  The grid's 32 points come in 16 pairs (2p, 2p + 1), one pair per (batch, head). The key and value windows move only
  between pairs, so both points of a pair see the same key and value blocks. The first point fills the scratch buffers
  from them; the second point reads the scratch buffers the first point left. So between the two points of a pair the
  invariant says what the scratch buffers hold (`Carried`), and between pairs it says nothing of them. After either
  point the output's staging buffer holds `outBlock` of the point's query block and the pair's key and value blocks.
-/
import proofs.«129592_j25984552141257_2_alg».proof.Proof.KBPieces

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's query, key and value blocks, at their literal shapes. -/
def qBlk (c : Dev nD) (t : Fin cfg0.N) : Vec F S1x1024x64 .f32 := iblk m c 0 t
def kBlk (c : Dev nD) (t : Fin cfg0.N) : Vec F S1x2048x64 .f32 := iblk m c 1 t
def vBlk (c : Dev nD) (t : Fin cfg0.N) : Vec F S1x2048x64 .f32 := iblk m c 2 t

/-- The first point of `t`'s pair. -/
def pairStart (t : Fin cfg0.N) : Fin cfg0.N := ⟨2 * (t.val / 2), Nat.lt_of_le_of_lt (Nat.mul_div_le t.val 2) t.isLt⟩

theorem pairStart_even (t : Fin cfg0.N) (h : t.val % 2 = 0) : pairStart t = t :=
  Fin.ext (by show 2 * (t.val / 2) = t.val; omega)

/-- What the scratch buffers hold between the two points of the pair whose key and value blocks are `x1`, `x2`:
    the keys; [ones | values | zeros]; their product; and, in row 0 of the bias buffer, [rows | column sums | zeros]. -/
def Carried (x1 x2 : Vec F S1x2048x64 .f32) (s0 : Vec F S2048x64 .bf16) (s1 : Vec F S2048x128 .bf16) (s2 : Vec F S64x128 .f32)
    (s3 : Vec F S8x128 .f32) : Prop :=
  s0 = k0_pay6 x1 ∧ s1 = valsExt x2 ∧ s2 = k0_pay11 x1 (valsExt x2) ∧ View.ld s3 biasRect = biasRow x2

/-- The scratch buffers owned at such contents, and the generator register. -/
def carriedInv (c : Dev nD) (x1 x2 : Vec F S1x2048x64 .f32) : sProp 𝕄 :=
  iprop(iprop(∃ s0 : Vec F S2048x64 .bf16, ∃ s1 : Vec F S2048x128 .bf16, ∃ s2 : Vec F S64x128 .f32, ∃ s3 : Vec F S8x128 .f32,
      ⌜Carried x1 x2 s0 s1 s2 s3⌝ ∗ owns (c : Thread nD τ) scrK fullShare s0 ∗ owns (c : Thread nD τ) scrV fullShare s1
        ∗ owns (c : Thread nD τ) scrKV fullShare s2 ∗ owns (c : Thread nD τ) scrB fullShare s3) ∗ (∃ r, prngReg c r))

/-- The invariant before position `n`: inside a pair (`n` odd) the scratch buffers hold what the pair's first point left;
    between pairs, anything. -/
def pairInv (c : Dev nD) (n : ℕ) (hn : n ≤ cfg0.N) : sProp 𝕄 :=
  if h : n % 2 = 1 then carriedInv c (kBlk m c ⟨n - 1, by omega⟩) (vBlk m c ⟨n - 1, by omega⟩)
  else Pipeline.ΦA spec0 c

theorem pairInv_even (c : Dev nD) (n : ℕ) (hn : n ≤ cfg0.N) (h : n % 2 = 0) : pairInv m c n hn = Pipeline.ΦA spec0 c := by
  unfold pairInv; rw [dif_neg (by omega)]

theorem pairInv_after_first (c : Dev nD) (t : Fin cfg0.N) (h : t.val % 2 = 0) :
    pairInv m c (t.val + 1) t.isLt = carriedInv c (kBlk m c t) (vBlk m c t) := by
  unfold pairInv; rw [dif_pos (by omega)]; rfl

theorem pairInv_second (c : Dev nD) (t : Fin cfg0.N) (h : t.val % 2 = 1) :
    pairInv m c t.val (Nat.le_of_lt t.isLt) = carriedInv c (kBlk m c (pairStart t)) (vBlk m c (pairStart t)) := by
  unfold pairInv; rw [dif_pos h]
  have e : (⟨t.val - 1, Nat.lt_of_le_of_lt (Nat.sub_le _ _) t.isLt⟩ : Fin cfg0.N) = pairStart t :=
    Fin.ext (by show t.val - 1 = 2 * (t.val / 2); omega)
  rw [e]

/-- The proof data on core `c`: the arrays as the region finds them; after the body each input's buffer at its block
    and the output's at `outBlock`; the invariant `pairInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (qBlk m c t) (kBlk m c (pairStart t)) (vBlk m c (pairStart t))
  Φ t := pairInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (qBlk m c t) (kBlk m c (pairStart t)) (vBlk m c (pairStart t)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

set_option maxHeartbeats 1600000 in
/-- The body at any point. At the first point of a pair the scratch buffers are handed over at anything and taken back
    at what the stores leave, which is `Carried` by the piece lemmas; at the second point they are handed over at
    `Carried` contents, come back unchanged and are then forgotten. Either way the output's buffer ends at `outBlock`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = pairInv m c (t.val + 1) t.isLt from rfl,
    show (dats m 0 c).Φ t.castSucc = pairInv m c t.val (Nat.le_of_lt t.isLt) from rfl]
  by_cases h0 : t.val % 2 = 0
  · rw [pairInv_even m c _ _ h0, pairInv_after_first m c t h0, pairStart_even t h0, restInv_eq]
    unfold carriedInv
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩⟩
    iapply ((runFirst c (grid0.coords t) _ _ _ _ _ _ _ _ _ _ _ _ _ _ _ _ ((firstOfPair_iff t).mpr h0) (iblk m c 0 t) (iblk m c 1 t) (iblk m c 2 t) ((dats m 0 c).before 3 t d3) e0 e1 e2 e3).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, ⟨%f3, H3⟩, ⟨%fs0, HS0⟩, ⟨%fs1, HS1⟩, ⟨%fs2, HS2⟩, ⟨%fs3, HS3⟩⟩
    isplitl [HS0 HS1 HS2 HS3 Hg]
    · isplitl [HS0 HS1 HS2 HS3]
      · iexists _, _, _, _
        isplitr; swap
        · isplitl [HS0]
          · unfold owns; iexists _; isplitr; swap; · iexact HS0
            ipureintro; rfl
          isplitl [HS1]
          · unfold owns; iexists _; isplitr; swap; · iexact HS1
            ipureintro; rfl
          isplitl [HS2]
          · unfold owns; iexists _; isplitr; swap; · iexact HS2
            ipureintro; rfl
          unfold owns; iexists _; isplitr; swap; · iexact HS3
          ipureintro; rfl
        ipureintro
        exact ⟨first_k .., first_v .., first_kv .., first_b ..⟩
      iexact Hg
    isplitl [Ho]; · iexact Ho
    isplitl [H0]; · iexact H0
    isplitl [H1]; · iexact H1
    isplitl [H2]; · iexact H2
    unfold owns; iexists _; isplitr; swap; · iexact H3
    ipureintro
    exact first_out ..
  · have h1 : t.val % 2 = 1 := by omega
    rw [pairInv_second m c t h1, pairInv_even m c _ _ (by omega : (t.val + 1) % 2 = 0), restInv_eq]
    unfold carriedInv
    iintro ⟨⟨⟨%s0, %s1, %s2, %s3, %hC, HS0, HS1, HS2, HS3⟩, Hg⟩, Ho, ⟨%d0, H0⟩, ⟨%d1, H1⟩, ⟨%d2, H2⟩, ⟨%d3, H3⟩⟩
    iapply ((runSecond c (grid0.coords t) _ _ _ _ _ _ _ _ _ _ _ _ _ _ _ _ (fun h => h0 ((firstOfPair_iff t).mp h)) (iblk m c 0 t) (iblk m c 1 t) (iblk m c 2 t) s0 s1 s2 s3).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%f3, H3⟩, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    unfold owns; iexists _; isplitr; swap; · iexact H3
    ipureintro
    obtain ⟨rfl, rfl, rfl, e3⟩ := hC
    rw [second_out, e3]
    rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = pairInv m c 0 (Nat.zero_le _) from rfl, pairInv_even m c 0 _ rfl]

/-- After the last point the invariant is the launch's again. -/
theorem hout (c : Dev nD) : (dats m 0 c).Φ (Fin.last cfg0.N) ⊢ Pipeline.ΦA spec0 c := by
  rw [show (dats m 0 c).Φ (Fin.last cfg0.N) = pairInv m c cfg0.N (Nat.le_refl _) from rfl,
    pairInv_even m c _ _ (by rw [show cfg0.N = 32 from N_0])]

set_option backward.isDefEq.respectTransparency.types false in
/-- Every weakly fair execution of @main terminates, every array of the pipeline ends at what the library computes
    from the proof data, and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Gen

end
-- ==== Proof.KIShared.lean ====
/-
  What the two runs of the kernel body share. The grid is 16 × 2: sixteen (batch, head) pairs, and for each the two
  halves of the query rows. A point is the FIRST of its pair when its second coordinate is zero; there the body fills
  its four scratch buffers from the pair's key and value blocks, and at both points of the pair it reads them.
-/
import proofs.«129592_j25984552141257_2_alg».proof.Proof.Gen.KernelIdeal.Frame
import proofs.«129592_j25984552141257_2_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the query-half coordinate is zero. -/
abbrev firstOfPair (i : grid0.Coords) : Prop :=
  (Scalar.cmpi .ne (Scalar.extui (Scalar.cmpi .eq (BitVec.ofNat 32 (i 1).val) 0#32)) 0#32) = 1#1

/-- Over the grid's 32 points it holds exactly at the even ones. -/
theorem firstOfPair_iff : ∀ t : Fin cfg0.N, firstOfPair (grid0.coords t) ↔ t.val % 2 = 0 :=
  (by decide +kernel : ∀ t : Fin grid0.N, firstOfPair (grid0.coords t) ↔ t.val % 2 = 0)

/-- The staging memref each window is on at point `t`, and that it is a whole buffer. -/
abbrev stg0 (t : Fin cfg0.N) : Memref sig .tc .vmem S1x1024x64 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S1x2048x64 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S1x2048x64 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x1024x64 .f32 := win0_3.stage (cfg0.slots t 3)
abbrev stg3_whole (t : Fin cfg0.N) : (stg3 t).IsWhole := hstage0_3 ((cfg0.slots t 3).cast nbuf0_3)

/-- The four scratch buffers: the keys, the values with a column of ones in front, their product, the bias row. -/
abbrev scrK : Memref sig .tc .vmem S2048x64 .bf16 := Memref.whole cc0_scratch0
abbrev scrV : Memref sig .tc .vmem S2048x128 .bf16 := Memref.whole cc0_scratch1
abbrev scrKV : Memref sig .tc .vmem S64x128 .f32 := Memref.whole cc0_scratch2
abbrev scrB : Memref sig .tc .vmem S8x128 .f32 := Memref.whole cc0_scratch3

/-- The launch's invariant spelt out: each scratch buffer owned whole at some contents, and the generator register. -/
theorem restInv_eq (c : Dev nD) :
    (Pipeline.ΦA spec0 c : sProp 𝕄)
      = iprop(iprop((∃ d, owns (c : Thread nD τ) scrK fullShare d) ∗ (∃ d, owns (c : Thread nD τ) scrV fullShare d) ∗ (∃ d, owns (c : Thread nD τ) scrKV fullShare d) ∗ (∃ d, owns (c : Thread nD τ) scrB fullShare d)) ∗ (∃ r, prngReg c r)) := by
  unfold Pipeline.ΦA; rw [scopedRest0_eq]; simp only [scrK, scrV, scrKV, scrB, owns_whole]; try rfl

end Cert.KernelIdeal.Gen

end
-- ==== Proof.KISecond.lean ====
/-
  The kernel body at the SECOND point of a pair (the branch not taken): it reads the query block and the four scratch
  buffers, and stores one piece, the whole output block. The run finds that piece.
-/
import proofs.«129592_j25984552141257_2_alg».proof.Proof.KIShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body leaves in the output's staging buffer when the branch is not taken, with the proof that, the
    inputs and the scratch buffers held at named contents, the body runs and hands everything back: the inputs and the
    scratch as they were, the output's buffer with the piece written. -/
noncomputable def runSecond (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) :
    { L3 : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare s0 ∗ owns (c : Thread nD τ) arg7 fullShare s1 ∗ owns (c : Thread nD τ) arg8 fullShare s2 ∗ owns (c : Thread nD τ) arg9 fullShare s3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare s0 ∗ owns (c : Thread nD τ) arg7 fullShare s1 ∗ owns (c : Thread nD τ) arg8 fullShare s2 ∗ owns (c : Thread nD τ) arg9 fullShare s3) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    iexists _; isplitr; · ipureintro; exact harg9.read_unread _
    iexact HS3

end Cert.KernelIdeal.Gen

end
-- ==== Proof.KIFirst.lean ====
/-
  The kernel body at the FIRST point of a pair (the branch taken): it fills the four scratch buffers from the key and
  value blocks, then does what the second point does. The run finds the pieces each written buffer ends with.
-/
import proofs.«129592_j25984552141257_2_alg».proof.Proof.KISecond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output's staging buffer and in the four scratch buffers when the branch is
    taken, with the proof that, every buffer held at named contents, the body runs and hands the inputs back as they
    were and each written buffer with its pieces written over what it held. -/
noncomputable def runFirst (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) :
    Σ' (L3 : List (View.Piece (Elt F) S1x1024x64 .f32)) (LS0 : List (View.Piece (Elt F) S2048x64 .bf16)) (LS1 : List (View.Piece (Elt F) S2048x128 .bf16))
      (LS2 : List (View.Piece (Elt F) S64x128 .f32)), { LS3 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ owns (c : Thread nD τ) arg6 fullShare s0 ∗ owns (c : Thread nD τ) arg7 fullShare s1 ∗ owns (c : Thread nD τ) arg8 fullShare s2 ∗ owns (c : Thread nD τ) arg9 fullShare s3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Gen

end
-- ==== Proof.KIScratch.lean ====
/-
  What the first point of a pair leaves in the scratch buffers, and the output block of either point, as pure terms
  of the pair's key block x1 and value block x2 and the point's query block x0.

  The value scratch is stored in three column pieces: a column of ones, the 64 value columns, 63 columns of zeros.
  The bias scratch has only its row 0 stored, in three pieces: the number of rows, the 64 column sums of the values,
  63 zeros; the body reads back that row alone.
-/
import proofs.«129592_j25984552141257_2_alg».proof.Proof.Gen.KernelIdeal.Skeleton
import Idealize.ShloMosaic.Lib.Pipeline.FrameBody
import Idealize.ShloMosaic.Lib.Pipeline.Value

noncomputable section

namespace Cert.KernelIdeal.Gen

open Idealize.ShloMosaic Idealize.SL.Sem

variable {F : FTy → Type} [FloatOps F]

/-- The value scratch after its three column stores (last store first): [ones | values | zeros]. -/
def valsExt (x2 : Vec F S1x2048x64 .f32) : Vec F S2048x128 .bf16 :=
  View.canon (Val := Elt F)
    [ (⟨Rect.unit (s := S2048x128) ![0, 65] S2048x63.size inb_S2048x128_S2048x63_0_65, k0_pay10 (F := F)⟩ : View.Piece (Elt F) S2048x128 .bf16),
      ⟨Rect.unit (s := S2048x128) ![0, 1] S2048x64.size inb_S2048x128_S2048x64_0_1, k0_pay9 x2⟩,
      ⟨Rect.unit (s := S2048x128) ![0, 0] S2048x1.size inb_S2048x128_S2048x1_0_0, k0_pay8 (F := F)⟩ ]

/-- The bias scratch where its three row-0 stores reach (last store first): [rows | column sums | zeros] in row 0. -/
def biasFull (x2 : Vec F S1x2048x64 .f32) : Vec F S8x128 .f32 :=
  View.canon (Val := Elt F)
    [ (⟨Rect.unit (s := S8x128) ![0, 65] S1x63.size inb_S8x128_S1x63_0_65, k0_pay3 (F := F)⟩ : View.Piece (Elt F) S8x128 .f32),
      ⟨Rect.unit (s := S8x128) ![0, 1] S1x64.size inb_S8x128_S1x64_0_1, k0_pay2 (k0_pay12 x2)⟩,
      ⟨Rect.unit (s := S8x128) ![0, 0] S1x1.size inb_S8x128_S1x1_0_0, k0_pay1 (k0_pay13 (F := F))⟩ ]

/-- The rectangle the body reads the bias through: row 0, all 128 columns. -/
abbrev biasRect : Rect S8x128 := Rect.unit (s := S8x128) ![0, 0] S1x128.size inb_S8x128_S1x128_0_0

/-- The bias row the body reads back. -/
def biasRow (x2 : Vec F S1x2048x64 .f32) : Vec F S1x128 .f32 := View.ld (biasFull x2) biasRect

/-- The output block of a point: the body's one output payload over the point's query block and the scratch contents
    the pair's first point leaves. -/
def outBlock (x0 : Vec F S1x1024x64 .f32) (x1 x2 : Vec F S1x2048x64 .f32) : Vec F S1x1024x64 .f32 :=
  k0_pay4 x0 (k0_pay6 x1) (valsExt x2) (k0_pay11 x1 (valsExt x2)) (biasRow x2)

end Cert.KernelIdeal.Gen

end
-- ==== Proof.KIPieces.lean ====
/-
  What the found pieces read back as. Whatever a written buffer held before, after the body's stores it reads: the
  output block, `outBlock` of the point's query block and the pair's key and value blocks; the key scratch, the keys;
  the value scratch, [ones | values | zeros]; the product scratch, keysᵀ · [ones | values | zeros]; and row 0 of the
  bias scratch, [rows | column sums | zeros]. At the second point the output block is the same payload over whatever
  the scratch buffers hold.
-/
import proofs.«129592_j25984552141257_2_alg».proof.Proof.KIFirst
import proofs.«129592_j25984552141257_2_alg».proof.Proof.KIScratch
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros3 : (![0, 0, 0] : Fin 3 → Nat) = fun _ => 0 := funext fun a => by fin_cases a <;> rfl
theorem zeros2 : (![0, 0] : Fin 2 → Nat) = fun _ => 0 := funext fun a => by fin_cases a <;> rfl

/-- A load of a whole buffer held at `x`, through the whole rectangle, reads `x`. -/
theorem readAt_whole_unread {s : Shape} {e : EltTy} (a : Memref sig .tc .vmem s e) (ha : a.IsWhole) {off : Fin s.rank → Nat}
    (h : off = fun _ => 0) (inb : ∀ a, off a + s.size a ≤ s.size a) (x : s.Idx → Elt F e) :
    View.readAt (Elt F) a.view (Rect.unit off s.size inb).toLoadRect (ha.unread x) = x := by
  rw [View.readAt_eq_ld, ha.read_unread]; exact View.ld_unit_zero h inb x

/-- After stores, a load through the whole rectangle reads what the stores leave. -/
theorem readCov_whole {s : Shape} {e : EltTy} (v : View sig .tc .vmem s e) (L : List (View.Piece (Elt F) s e)) {off : Fin s.rank → Nat}
    (h : off = fun _ => 0) (inb : ∀ a, off a + s.size a ≤ s.size a) :
    v.readCov L (Rect.unit off s.size inb).toLoadRect = View.canon L := by
  rw [View.readCov_eq_canon']; exact View.ld_unit_zero h inb (View.canon L)

/-- After stores, a load through any rectangle reads what the stores leave, there. -/
theorem readCov_rect {s : Shape} {e : EltTy} (v : View sig .tc .vmem s e) (L : List (View.Piece (Elt F) s e)) (r : Rect s) :
    v.readCov L r.toLoadRect = View.ld (View.canon L) r := by
  rw [View.readCov_eq_canon']

/-! ## The second point -/

theorem second_cover (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) (y : S1x1024x64.Idx) :
    ∃ pc ∈ (runSecond c i arg2 harg2 arg3 harg3 arg4 harg4 arg5 harg5 arg6 harg6 arg7 harg7 arg8 harg8 arg9 harg9 hc0 x0 x1 x2 s0 s1 s2 s3).1, y ∈ pc.1.set :=
  View.cover_of_tiledL _ S1x1024x64.size (by sl_kernel_rfl) y

/-- The output block at the second point: the payload over the query block and the scratch contents. -/
theorem second_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : ¬firstOfPair i)
    (x0 : Vec F S1x1024x64 .f32) (x1 : Vec F S1x2048x64 .f32) (x2 : Vec F S1x2048x64 .f32)
    (s0 : Vec F S2048x64 .bf16) (s1 : Vec F S2048x128 .bf16) (s2 : Vec F S64x128 .f32) (s3 : Vec F S8x128 .f32) (f : arg5.view.ty.Contents (Elt F)) :
    arg5.view.read (Elt F) (arg5.view.writes (Elt F) f (runSecond c i arg2 harg2 arg3 harg3 arg4 harg4 arg5 harg5 arg6 harg6 arg7 harg7 arg8 harg8 arg9 harg9 hc0 x0 x1 x2 s0 s1 s2 s3).1)
      = k0_pay4 x0 s0 s1 s2 (View.ld s3 biasRect) := by
  rw [View.read_writes_eq_canon _ _ _ (second_cover c i arg2 harg2 arg3 harg3 arg4 harg4 arg5 harg5 arg6 harg6 arg7 harg7 arg8 harg8 arg9 harg9 hc0 x0 x1 x2 s0 s1 s2 s3)]
  unfold runSecond
  dsimp only
  rw [View.canon_unit_zero zeros3]
  rw [readAt_whole_unread arg2 harg2 zeros3, readAt_whole_unread arg6 harg6 zeros2, readAt_whole_unread arg7 harg7 zeros2,
    readAt_whole_unread arg8 harg8 zeros2, View.readAt_eq_ld, harg9.read_unread]

/-! ## The first point -/

theorem first_cover_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S1x1024x64.Idx) :
    ∃ pc ∈ (runFirst c i arg2 harg2 arg3 harg3 arg4 harg4 arg5 harg5 arg6 harg6 arg7 harg7 arg8 harg8 arg9 harg9 hc0 x0 x1 x2 d3 s0 s1 s2 s3).1, y ∈ pc.1.set :=
  View.cover_of_tiledL _ S1x1024x64.size (by sl_kernel_rfl) y

theorem first_cover_k (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S2048x64.Idx) :
    ∃ pc ∈ (runFirst c i arg2 harg2 arg3 harg3 arg4 harg4 arg5 harg5 arg6 harg6 arg7 harg7 arg8 harg8 arg9 harg9 hc0 x0 x1 x2 d3 s0 s1 s2 s3).2.1, y ∈ pc.1.set :=
  View.cover_of_tiledL _ S2048x64.size (by sl_kernel_rfl) y

theorem first_cover_kv (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S64x128.Idx) :
    ∃ pc ∈ (runFirst c i arg2 harg2 arg3 harg3 arg4 harg4 arg5 harg5 arg6 harg6 arg7 harg7 arg8 harg8 arg9 harg9 hc0 x0 x1 x2 d3 s0 s1 s2 s3).2.2.2.1, y ∈ pc.1.set :=
  View.cover_of_tiledL _ S64x128.size (by sl_kernel_rfl) y

/-- The key scratch reads the keys. -/
theorem first_k (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg6.view.ty.Contents (Elt F)) :
    arg6.view.read (Elt F) (arg6.view.writes (Elt F) f (runFirst c i arg2 harg2 arg3 harg3 arg4 harg4 arg5 harg5 arg6 harg6 arg7 harg7 arg8 harg8 arg9 harg9 hc0 x0 x1 x2 d3 s0 s1 s2 s3).2.1) = k0_pay6 x1 := by
  rw [View.read_writes_eq_canon _ _ _ (first_cover_k c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros2, readAt_whole_unread arg3 harg3 zeros3]

/-- The product scratch reads keysᵀ · [ones | values | zeros]. -/
theorem first_kv (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hc0 x0 x1 x2 d3 s0 s1 s2 s3).2.2.2.1) = k0_pay11 x1 (valsExt x2) := by
  rw [View.read_writes_eq_canon _ _ _ (first_cover_kv c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros2, readAt_whole_unread arg3 harg3 zeros3, readCov_whole arg7.view _ zeros2, readAt_whole_unread arg4 harg4 zeros3]
  rfl

/-- The output block at the first point. -/
theorem first_out (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg5.view.ty.Contents (Elt F)) :
    arg5.view.read (Elt F) (arg5.view.writes (Elt F) f (runFirst c i arg2 harg2 arg3 harg3 arg4 harg4 arg5 harg5 arg6 harg6 arg7 harg7 arg8 harg8 arg9 harg9 hc0 x0 x1 x2 d3 s0 s1 s2 s3).1) = outBlock x0 x1 x2 := by
  rw [View.read_writes_eq_canon _ _ _ (first_cover_out c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [View.canon_unit_zero zeros3]
  simp only [readAt_whole_unread arg2 harg2 zeros3, readAt_whole_unread arg3 harg3 zeros3, readAt_whole_unread arg4 harg4 zeros3,
    View.readCov_unit_zero arg6.view zeros2, View.readCov_unit_zero arg8.view zeros2, readCov_whole arg7.view _ zeros2, readCov_rect arg9.view]
  rfl

theorem first_cover_v (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (y : S2048x128.Idx) :
    ∃ pc ∈ (runFirst c i arg2 harg2 arg3 harg3 arg4 harg4 arg5 harg5 arg6 harg6 arg7 harg7 arg8 harg8 arg9 harg9 hc0 x0 x1 x2 d3 s0 s1 s2 s3).2.2.1, y ∈ pc.1.set :=
  View.cover_of_tiledBy _ ![2048, 1] (by sl_kernel_rfl) y

/-- The value scratch reads [ones | values | zeros]. -/
theorem first_v (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hc0 x0 x1 x2 d3 s0 s1 s2 s3).2.2.1) = valsExt x2 := by
  rw [View.read_writes_eq_canon _ _ _ (first_cover_v c i arg2 harg2 arg3 harg3 arg4 harg4 arg5 harg5 arg6 harg6 arg7 harg7 arg8 harg8 arg9 harg9 hc0 x0 x1 x2 d3 s0 s1 s2 s3)]
  unfold runFirst
  dsimp only
  sl_unfold_words
  rw [readAt_whole_unread arg4 harg4 zeros3]
  rfl

/-- Row 0 of an [8,128] buffer is covered by three pieces of that row: column 0, columns 1 to 64, columns 65 to 127. -/
theorem row0_cover (w65 : (Rect.unit (s := S8x128) ![0, 65] S1x63.size inb_S8x128_S1x63_0_65).shape.Idx → Elt F .f32)
    (w1 : (Rect.unit (s := S8x128) ![0, 1] S1x64.size inb_S8x128_S1x64_0_1).shape.Idx → Elt F .f32)
    (w0 : (Rect.unit (s := S8x128) ![0, 0] S1x1.size inb_S8x128_S1x1_0_0).shape.Idx → Elt F .f32) (j : S1x128.Idx) :
    ∃ p ∈ ([⟨Rect.unit (s := S8x128) ![0, 65] S1x63.size inb_S8x128_S1x63_0_65, w65⟩,
              ⟨Rect.unit (s := S8x128) ![0, 1] S1x64.size inb_S8x128_S1x64_0_1, w1⟩,
              ⟨Rect.unit (s := S8x128) ![0, 0] S1x1.size inb_S8x128_S1x1_0_0, w0⟩] : List (View.Piece (Elt F) S8x128 .f32)),
      biasRect.idx j ∈ p.1.set := by
  have h0 : (j 0 : Nat) = 0 := Nat.lt_one_iff.mp (j 0).isLt
  have h1 : (j 1 : Nat) < 128 := (j 1).isLt
  have e0 : ((biasRect.idx j) 0 : Nat) = 0 := by show 0 + 1 * (j 0 : Nat) = 0; omega
  have e1 : ((biasRect.idx j) 1 : Nat) = (j 1 : Nat) := by show 0 + 1 * (j 1 : Nat) = _; omega
  by_cases hc0 : (j 1 : Nat) = 0
  · refine ⟨⟨Rect.unit (s := S8x128) ![0, 0] S1x1.size inb_S8x128_S1x1_0_0, w0⟩,
      List.mem_cons_of_mem _ (List.mem_cons_of_mem _ List.mem_cons_self), ?_⟩
    show biasRect.idx j ∈ (Rect.unit (s := S8x128) ![0, 0] S1x1.size inb_S8x128_S1x1_0_0).set
    rw [Rect.mem_set_unit]
    intro a
    match a with
    | ⟨0, _⟩ => show (0 : Nat) ≤ ((biasRect.idx j) 0 : Nat) ∧ ((biasRect.idx j) 0 : Nat) < 0 + 1; rw [e0]; omega
    | ⟨1, _⟩ => show (0 : Nat) ≤ ((biasRect.idx j) 1 : Nat) ∧ ((biasRect.idx j) 1 : Nat) < 0 + 1; rw [e1]; omega
  · by_cases hc1 : (j 1 : Nat) < 65
    · refine ⟨⟨Rect.unit (s := S8x128) ![0, 1] S1x64.size inb_S8x128_S1x64_0_1, w1⟩,
        List.mem_cons_of_mem _ List.mem_cons_self, ?_⟩
      show biasRect.idx j ∈ (Rect.unit (s := S8x128) ![0, 1] S1x64.size inb_S8x128_S1x64_0_1).set
      rw [Rect.mem_set_unit]
      intro a
      match a with
      | ⟨0, _⟩ => show (0 : Nat) ≤ ((biasRect.idx j) 0 : Nat) ∧ ((biasRect.idx j) 0 : Nat) < 0 + 1; rw [e0]; omega
      | ⟨1, _⟩ => show (1 : Nat) ≤ ((biasRect.idx j) 1 : Nat) ∧ ((biasRect.idx j) 1 : Nat) < 1 + 64; rw [e1]; omega
    · refine ⟨⟨Rect.unit (s := S8x128) ![0, 65] S1x63.size inb_S8x128_S1x63_0_65, w65⟩, List.mem_cons_self, ?_⟩
      show biasRect.idx j ∈ (Rect.unit (s := S8x128) ![0, 65] S1x63.size inb_S8x128_S1x63_0_65).set
      rw [Rect.mem_set_unit]
      intro a
      match a with
      | ⟨0, _⟩ => show (0 : Nat) ≤ ((biasRect.idx j) 0 : Nat) ∧ ((biasRect.idx j) 0 : Nat) < 0 + 1; rw [e0]; omega
      | ⟨1, _⟩ => show (65 : Nat) ≤ ((biasRect.idx j) 1 : Nat) ∧ ((biasRect.idx j) 1 : Nat) < 65 + 63; rw [e1]; omega

/-- Row 0 of the bias scratch reads [rows | column sums | zeros], whatever the buffer held. -/
theorem first_b (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x128 .bf16) (harg7 : arg7.IsWhole) (arg8 : Memref sig .tc .vmem S64x128 .f32) (harg8 : arg8.IsWhole) (arg9 : Memref sig .tc .vmem S8x128 .f32) (harg9 : arg9.IsWhole) (hc0 : firstOfPair i)
    (x0 : Vec F S1x1024x64 .f32) (x1 : Vec F S1x2048x64 .f32) (x2 : Vec F S1x2048x64 .f32) (d3 : Vec F S1x1024x64 .f32)
    (s0 : Vec F S2048x64 .bf16) (s1 : Vec F S2048x128 .bf16) (s2 : Vec F S64x128 .f32) (s3 : Vec F S8x128 .f32) (f : arg9.view.ty.Contents (Elt F)) :
    View.ld (arg9.view.read (Elt F) (arg9.view.writes (Elt F) f (runFirst c i arg2 harg2 arg3 harg3 arg4 harg4 arg5 harg5 arg6 harg6 arg7 harg7 arg8 harg8 arg9 harg9 hc0 x0 x1 x2 d3 s0 s1 s2 s3).2.2.2.2.1)) biasRect = biasRow x2 := by
  funext j
  show arg9.view.read (Elt F) (arg9.view.writes (Elt F) f _) (biasRect.idx j) = biasFull x2 (biasRect.idx j)
  unfold runFirst
  dsimp only
  sl_unfold_words
  rw [View.read_writes_apply_eq_canon _ f _ _ (row0_cover _ _ _ j), readAt_whole_unread arg4 harg4 zeros3]
  rfl

end Cert.KernelIdeal.Gen

end
-- ==== Proof.KIData.lean ====
/-
  The pipeline's proof data and the body obligation.

  The grid's 32 points come in 16 pairs (2p, 2p + 1), one pair per (batch, head). The key and value windows move only
  between pairs, so both points of a pair see the same key and value blocks. The first point fills the scratch buffers
  from them; the second point reads the scratch buffers the first point left. So between the two points of a pair the
  invariant says what the scratch buffers hold (`Carried`), and between pairs it says nothing of them. After either
  point the output's staging buffer holds `outBlock` of the point's query block and the pair's key and value blocks.
-/
import proofs.«129592_j25984552141257_2_alg».proof.Proof.KIPieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's query, key and value blocks, at their literal shapes. -/
def qBlk (c : Dev nD) (t : Fin cfg0.N) : Vec F S1x1024x64 .f32 := iblk m c 0 t
def kBlk (c : Dev nD) (t : Fin cfg0.N) : Vec F S1x2048x64 .f32 := iblk m c 1 t
def vBlk (c : Dev nD) (t : Fin cfg0.N) : Vec F S1x2048x64 .f32 := iblk m c 2 t

/-- The first point of `t`'s pair. -/
def pairStart (t : Fin cfg0.N) : Fin cfg0.N := ⟨2 * (t.val / 2), Nat.lt_of_le_of_lt (Nat.mul_div_le t.val 2) t.isLt⟩

theorem pairStart_even (t : Fin cfg0.N) (h : t.val % 2 = 0) : pairStart t = t :=
  Fin.ext (by show 2 * (t.val / 2) = t.val; omega)

/-- What the scratch buffers hold between the two points of the pair whose key and value blocks are `x1`, `x2`:
    the keys; [ones | values | zeros]; their product; and, in row 0 of the bias buffer, [rows | column sums | zeros]. -/
def Carried (x1 x2 : Vec F S1x2048x64 .f32) (s0 : Vec F S2048x64 .bf16) (s1 : Vec F S2048x128 .bf16) (s2 : Vec F S64x128 .f32)
    (s3 : Vec F S8x128 .f32) : Prop :=
  s0 = k0_pay6 x1 ∧ s1 = valsExt x2 ∧ s2 = k0_pay11 x1 (valsExt x2) ∧ View.ld s3 biasRect = biasRow x2

/-- The scratch buffers owned at such contents, and the generator register. -/
def carriedInv (c : Dev nD) (x1 x2 : Vec F S1x2048x64 .f32) : sProp 𝕄 :=
  iprop(iprop(∃ s0 : Vec F S2048x64 .bf16, ∃ s1 : Vec F S2048x128 .bf16, ∃ s2 : Vec F S64x128 .f32, ∃ s3 : Vec F S8x128 .f32,
      ⌜Carried x1 x2 s0 s1 s2 s3⌝ ∗ owns (c : Thread nD τ) scrK fullShare s0 ∗ owns (c : Thread nD τ) scrV fullShare s1
        ∗ owns (c : Thread nD τ) scrKV fullShare s2 ∗ owns (c : Thread nD τ) scrB fullShare s3) ∗ (∃ r, prngReg c r))

/-- The invariant before position `n`: inside a pair (`n` odd) the scratch buffers hold what the pair's first point left;
    between pairs, anything. -/
def pairInv (c : Dev nD) (n : ℕ) (hn : n ≤ cfg0.N) : sProp 𝕄 :=
  if h : n % 2 = 1 then carriedInv c (kBlk m c ⟨n - 1, by omega⟩) (vBlk m c ⟨n - 1, by omega⟩)
  else Pipeline.ΦA spec0 c

theorem pairInv_even (c : Dev nD) (n : ℕ) (hn : n ≤ cfg0.N) (h : n % 2 = 0) : pairInv m c n hn = Pipeline.ΦA spec0 c := by
  unfold pairInv; rw [dif_neg (by omega)]

theorem pairInv_after_first (c : Dev nD) (t : Fin cfg0.N) (h : t.val % 2 = 0) :
    pairInv m c (t.val + 1) t.isLt = carriedInv c (kBlk m c t) (vBlk m c t) := by
  unfold pairInv; rw [dif_pos (by omega)]; rfl

theorem pairInv_second (c : Dev nD) (t : Fin cfg0.N) (h : t.val % 2 = 1) :
    pairInv m c t.val (Nat.le_of_lt t.isLt) = carriedInv c (kBlk m c (pairStart t)) (vBlk m c (pairStart t)) := by
  unfold pairInv; rw [dif_pos h]
  have e : (⟨t.val - 1, Nat.lt_of_le_of_lt (Nat.sub_le _ _) t.isLt⟩ : Fin cfg0.N) = pairStart t :=
    Fin.ext (by show t.val - 1 = 2 * (t.val / 2); omega)
  rw [e]

/-- The proof data on core `c`: the arrays as the region finds them; after the body each input's buffer at its block
    and the output's at `outBlock`; the invariant `pairInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (qBlk m c t) (kBlk m c (pairStart t)) (vBlk m c (pairStart t))
  Φ t := pairInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (qBlk m c t) (kBlk m c (pairStart t)) (vBlk m c (pairStart t)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t))

set_option maxHeartbeats 1600000 in
/-- The body at any point. At the first point of a pair the scratch buffers are handed over at anything and taken back
    at what the stores leave, which is `Carried` by the piece lemmas; at the second point they are handed over at
    `Carried` contents, come back unchanged and are then forgotten. Either way the output's buffer ends at `outBlock`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = pairInv m c (t.val + 1) t.isLt from rfl,
    show (dats m 0 c).Φ t.castSucc = pairInv m c t.val (Nat.le_of_lt t.isLt) from rfl]
  by_cases h0 : t.val % 2 = 0
  · rw [pairInv_even m c _ _ h0, pairInv_after_first m c t h0, pairStart_even t h0, restInv_eq]
    unfold carriedInv
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩⟩
    iapply ((runFirst c (grid0.coords t) _ _ _ _ _ _ _ _ _ _ _ _ _ _ _ _ ((firstOfPair_iff t).mpr h0) (iblk m c 0 t) (iblk m c 1 t) (iblk m c 2 t) ((dats m 0 c).before 3 t d3) e0 e1 e2 e3).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, ⟨%f3, H3⟩, ⟨%fs0, HS0⟩, ⟨%fs1, HS1⟩, ⟨%fs2, HS2⟩, ⟨%fs3, HS3⟩⟩
    isplitl [HS0 HS1 HS2 HS3 Hg]
    · isplitl [HS0 HS1 HS2 HS3]
      · iexists _, _, _, _
        isplitr; swap
        · isplitl [HS0]
          · unfold owns; iexists _; isplitr; swap; · iexact HS0
            ipureintro; rfl
          isplitl [HS1]
          · unfold owns; iexists _; isplitr; swap; · iexact HS1
            ipureintro; rfl
          isplitl [HS2]
          · unfold owns; iexists _; isplitr; swap; · iexact HS2
            ipureintro; rfl
          unfold owns; iexists _; isplitr; swap; · iexact HS3
          ipureintro; rfl
        ipureintro
        exact ⟨first_k .., first_v .., first_kv .., first_b ..⟩
      iexact Hg
    isplitl [Ho]; · iexact Ho
    isplitl [H0]; · iexact H0
    isplitl [H1]; · iexact H1
    isplitl [H2]; · iexact H2
    unfold owns; iexists _; isplitr; swap; · iexact H3
    ipureintro
    exact first_out ..
  · have h1 : t.val % 2 = 1 := by omega
    rw [pairInv_second m c t h1, pairInv_even m c _ _ (by omega : (t.val + 1) % 2 = 0), restInv_eq]
    unfold carriedInv
    iintro ⟨⟨⟨%s0, %s1, %s2, %s3, %hC, HS0, HS1, HS2, HS3⟩, Hg⟩, Ho, ⟨%d0, H0⟩, ⟨%d1, H1⟩, ⟨%d2, H2⟩, ⟨%d3, H3⟩⟩
    iapply ((runSecond c (grid0.coords t) _ _ _ _ _ _ _ _ _ _ _ _ _ _ _ _ (fun h => h0 ((firstOfPair_iff t).mp h)) (iblk m c 0 t) (iblk m c 1 t) (iblk m c 2 t) s0 s1 s2 s3).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%f3, H3⟩, HS0, HS1, HS2, HS3⟩
    isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    isplitl [Ho]; · iexact Ho
    isplitl [H0]; · iexact H0
    isplitl [H1]; · iexact H1
    isplitl [H2]; · iexact H2
    unfold owns; iexists _; isplitr; swap; · iexact H3
    ipureintro
    obtain ⟨rfl, rfl, rfl, e3⟩ := hC
    rw [second_out, e3]
    rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = pairInv m c 0 (Nat.zero_le _) from rfl, pairInv_even m c 0 _ rfl]

/-- After the last point the invariant is the launch's again. -/
theorem hout (c : Dev nD) : (dats m 0 c).Φ (Fin.last cfg0.N) ⊢ Pipeline.ΦA spec0 c := by
  rw [show (dats m 0 c).Φ (Fin.last cfg0.N) = pairInv m c cfg0.N (Nat.le_refl _) from rfl,
    pairInv_even m c _ _ (by rw [show cfg0.N = 32 from N_0])]

set_option backward.isDefEq.respectTransparency.types false in
/-- Every weakly fair execution of @main terminates, every array of the pipeline ends at what the library computes
    from the proof data, and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Gen

end
-- ==== Proof.KIReads.lean ====
/-
  Each input block read back as entries of the argument array.

  The argument is one array [3, 2, 8, 2048, 64]: queries, keys and values, each [batch, head, row, column]. Before the
  region the host slices out each of the three and flattens batch and head into one axis of 16. Window w's block at grid
  point t is, for the queries, rows 1024·(t mod 2) … of pair t div 2; for the keys and values, all 2048 rows of pair
  t div 2. So an entry of a block is the argument's entry at part w, batch (t div 2) div 8, head (t div 2) mod 8.
-/
import proofs.«129592_j25984552141257_2_alg».proof.Proof.KIData
import Idealize.ShloMosaic.Lib.Pipeline.Value
import Idealize.ShloMosaic.Lib.ValueIdx
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Where each window's block sits at point `t`, decided over the grid. -/
theorem qIndex : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem kIndex : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem vIndex : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)
theorem oIndex : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)

/-- The query block at point `t` is rows 1024·(t mod 2) … of pair t div 2 of the flattened queries. -/
theorem qBlk_apply (c : Dev nD) (t : Fin cfg0.N) (x : S1x1024x64.Idx) (k : S16x2048x64.Idx)
    (hk0 : (k 0).val = t.val / 2) (hk1 : (k 1).val = (t.val % 2) * 1024 + (x 1).val) (hk2 : (k 2).val = (x 2).val) :
    qBlk m c t x = (V m c main_v6 : S16x2048x64.Idx → Elt F .f32) k := by
  obtain ⟨i0, i1, i2⟩ := qIndex t
  have hx0 : (x 0).val = 0 := Nat.lt_one_iff.mp (x 0).isLt
  unfold qBlk iblk
  rw [View.read_apply]
  show V m c main_v6 _ = V m c main_v6 _
  congr 1
  funext a
  apply Fin.ext
  match a with
  | ⟨0, _⟩ => show win0_0.index t 0 * 1 + 1 * (x 0).val = (k 0).val; rw [i0, hk0, hx0]; omega
  | ⟨1, _⟩ => show win0_0.index t 1 * 1024 + 1 * (x 1).val = (k 1).val; rw [i1, hk1]; omega
  | ⟨2, _⟩ => show win0_0.index t 2 * 64 + 1 * (x 2).val = (k 2).val; rw [i2, hk2]; omega

/-- The key block at point `t` is pair t div 2 of the flattened keys. -/
theorem kBlk_apply (c : Dev nD) (t : Fin cfg0.N) (x : S1x2048x64.Idx) (k : S16x2048x64.Idx)
    (hk0 : (k 0).val = t.val / 2) (hk1 : (k 1).val = (x 1).val) (hk2 : (k 2).val = (x 2).val) :
    kBlk m c t x = (V m c main_v7 : S16x2048x64.Idx → Elt F .f32) k := by
  obtain ⟨i0, i1, i2⟩ := kIndex t
  have hx0 : (x 0).val = 0 := Nat.lt_one_iff.mp (x 0).isLt
  unfold kBlk iblk
  rw [View.read_apply]
  show V m c main_v7 _ = V m c main_v7 _
  congr 1
  funext a
  apply Fin.ext
  match a with
  | ⟨0, _⟩ => show win0_1.index t 0 * 1 + 1 * (x 0).val = (k 0).val; rw [i0, hk0, hx0]; omega
  | ⟨1, _⟩ => show win0_1.index t 1 * 2048 + 1 * (x 1).val = (k 1).val; rw [i1, hk1]; omega
  | ⟨2, _⟩ => show win0_1.index t 2 * 64 + 1 * (x 2).val = (k 2).val; rw [i2, hk2]; omega

/-- The value block at point `t` is pair t div 2 of the flattened values. -/
theorem vBlk_apply (c : Dev nD) (t : Fin cfg0.N) (x : S1x2048x64.Idx) (k : S16x2048x64.Idx)
    (hk0 : (k 0).val = t.val / 2) (hk1 : (k 1).val = (x 1).val) (hk2 : (k 2).val = (x 2).val) :
    vBlk m c t x = (V m c main_v8 : S16x2048x64.Idx → Elt F .f32) k := by
  obtain ⟨i0, i1, i2⟩ := vIndex t
  have hx0 : (x 0).val = 0 := Nat.lt_one_iff.mp (x 0).isLt
  unfold vBlk iblk
  rw [View.read_apply]
  show V m c main_v8 _ = V m c main_v8 _
  congr 1
  funext a
  apply Fin.ext
  match a with
  | ⟨0, _⟩ => show win0_2.index t 0 * 1 + 1 * (x 0).val = (k 0).val; rw [i0, hk0, hx0]; omega
  | ⟨1, _⟩ => show win0_2.index t 1 * 2048 + 1 * (x 1).val = (k 1).val; rw [i1, hk1]; omega
  | ⟨2, _⟩ => show win0_2.index t 2 * 64 + 1 * (x 2).val = (k 2).val; rw [i2, hk2]; omega

/-- One of the three parts of the argument, sliced out and flattened to [16, 2048, 64], read at an index: pair
    8·b + h is batch b, head h. -/
theorem part_apply (x : S3x2x8x2048x64.Idx → Elt F .f32) (s : Fin 3) (off : Fin 5 → Nat) (hoff : off = ![s.val, 0, 0, 0, 0])
    (hs : S3x2x8x2048x64.Slices off S1x2x8x2048x64) (h1 : S1x2x8x2048x64.ShapeCasts S2x8x2048x64) (h2 : S2x8x2048x64.ShapeCasts S16x2048x64)
    (p : Fin 16) (n : Fin 2048) (d : Fin 64) (b : Fin 2) (h : Fin 8) (hp : p.val = 8 * b.val + h.val) :
    shapeCast S16x2048x64 (shapeCast S2x8x2048x64 (extractStridedSlice S1x2x8x2048x64 off x hs) h1) h2 (ix3 p n d)
      = x (ix5 s b h n d) := by
  subst hoff
  rw [shapeCast_apply _ h2 (ix3 p n d) (ix4 b h n d) (by
      rw [Shape.rowMajor_val_four, Shape.rowMajor_val_three]
      show ((b.val * 8 + h.val) * 2048 + n.val) * 64 + d.val = (p.val * 2048 + n.val) * 64 + d.val
      rw [hp]; omega),
    shapeCast_apply _ h1 (ix4 b h n d) (ix5 (0 : Fin 1) b h n d) (by
      rw [Shape.rowMajor_val_five, Shape.rowMajor_val_four]
      show ((((0 : ℕ) * 2 + b.val) * 8 + h.val) * 2048 + n.val) * 64 + d.val = ((b.val * 8 + h.val) * 2048 + n.val) * 64 + d.val
      omega)]
  exact extractStridedSlice_apply _ x hs (ix5 (0 : Fin 1) b h n d) (ix5 s b h n d) (fun a => by
    match a with
    | ⟨0, _⟩ => show s.val = s.val + 0; omega
    | ⟨1, _⟩ => show b.val = 0 + b.val; omega
    | ⟨2, _⟩ => show h.val = 0 + h.val; omega
    | ⟨3, _⟩ => show n.val = 0 + n.val; omega
    | ⟨4, _⟩ => show d.val = 0 + d.val; omega)

/-- The three flattened arrays the region finds, as the host's operations on the argument. -/
theorem V_q (c : Dev nD) : (V m c main_v6 : S16x2048x64.Idx → Elt F .f32)
    = shapeCast S16x2048x64 (shapeCast S2x8x2048x64 (extractStridedSlice S1x2x8x2048x64 ![0, 0, 0, 0, 0] (m ((c : Thread nD τ).loc main_arg0)) slices_S3x2x8x2048x64_S1x2x8x2048x64_0_0_0_0_0) shapeCasts_S1x2x8x2048x64_S2x8x2048x64) shapeCasts_S2x8x2048x64_S16x2048x64 := by
  show StableHlo.after hostOps0 (fun b => m (c, b)) (Proc.devRef .tc main_v6) = _
  after_results; rfl
theorem V_k (c : Dev nD) : (V m c main_v7 : S16x2048x64.Idx → Elt F .f32)
    = shapeCast S16x2048x64 (shapeCast S2x8x2048x64 (extractStridedSlice S1x2x8x2048x64 ![1, 0, 0, 0, 0] (m ((c : Thread nD τ).loc main_arg0)) slices_S3x2x8x2048x64_S1x2x8x2048x64_1_0_0_0_0) shapeCasts_S1x2x8x2048x64_S2x8x2048x64) shapeCasts_S2x8x2048x64_S16x2048x64 := by
  show StableHlo.after hostOps0 (fun b => m (c, b)) (Proc.devRef .tc main_v7) = _
  after_results; rfl
theorem V_v (c : Dev nD) : (V m c main_v8 : S16x2048x64.Idx → Elt F .f32)
    = shapeCast S16x2048x64 (shapeCast S2x8x2048x64 (extractStridedSlice S1x2x8x2048x64 ![2, 0, 0, 0, 0] (m ((c : Thread nD τ).loc main_arg0)) slices_S3x2x8x2048x64_S1x2x8x2048x64_2_0_0_0_0) shapeCasts_S1x2x8x2048x64_S2x8x2048x64) shapeCasts_S2x8x2048x64_S16x2048x64 := by
  show StableHlo.after hostOps0 (fun b => m (c, b)) (Proc.devRef .tc main_v8) = _
  after_results; rfl

end Cert.KernelIdeal.Gen

end
-- ==== Proof.TaylorSpec.lean ====
/-
  The specification both programs meet: second-order "Taylor" attention for one (batch, head).

  With queries q, keys k and values v (2048 rows of 64 entries each) and the values extended by a leading column of
  ones, v1 = [1 | v] (65 columns), the un-normalised result at query row n and column j is

      y n j = 1/2 · Σ_m (q_n · k_m)² · v1 m j  +  Σ_d q n d · (Σ_m k m d · v1 m j)  +  Σ_m v1 m j,

  the three terms being the second-order, the first-order and the zeroth-order part of exp (q_n · k_m) expanded at 0.
  Column 0 of y is the normaliser (v1's column of ones), and the result is y's other 64 columns divided by it.
  The last term's column 0 is the number of rows, 2048, and is written so.
-/
import Idealize.ShloMosaic.PureOps.Ideal
import Idealize.ShloMosaic.PureOps.Ideal.Laws

noncomputable section

open scoped BigOperators

namespace Cert.TaylorSpec

open Idealize.ShloMosaic

/-- A row of values with a one in front: column 0 is 1, column e + 1 is the row's column e. -/
def withOne (v : Fin 2048 → Fin 64 → EReal) (m : Fin 2048) : Fin 65 → EReal := Fin.cases 1 (v m)

/-- The score of query row n against key row m: their inner product. -/
def score (q k : Fin 2048 → Fin 64 → EReal) (n m : Fin 2048) : EReal := ∑ d, q n d * k m d

/-- The un-normalised result at query row n, column j of 65 (the one-half is the float literal both programs spell). -/
def yAt (q k v : Fin 2048 → Fin 64 → EReal) (n : Fin 2048) (j : Fin 65) : EReal :=
  (Ideal.ofBits .f32 0x3F000000#32 * (∑ m, (score q k n m * score q k n m) * withOne v m j)
    + ∑ d, q n d * (∑ m, k m d * withOne v m j))
  + Fin.cases (2048 : EReal) (fun e => ∑ m, v m e) j

/-- The result for the whole argument, by coordinates: x 0, x 1, x 2 are the queries, keys and values; then batch,
    head, row, column. Column e of the result is column e + 1 of y over column 0. -/
def result (x : Fin 3 → Fin 2 → Fin 8 → Fin 2048 → Fin 64 → EReal) (b : Fin 2) (h : Fin 8) (n : Fin 2048) (e : Fin 64) : EReal :=
  Ideal.div (yAt (x 0 b h) (x 1 b h) (x 2 b h) n e.succ) (yAt (x 0 b h) (x 1 b h) (x 2 b h) n 0)

end Cert.TaylorSpec

end
-- ==== Proof.KIBlockDots.lean ====
/-
  The body's four matrix products read at an index, at the ideal values: each is the sum, over the one contracted
  coordinate, of the products of the operands' entries. Stated over arbitrary operands of the literal shapes.
-/
import proofs.«129592_j25984552141257_2_alg».proof.Proof.Gen.KernelIdeal.Skeleton
import Idealize.ShloMosaic.Lib.ValueIdx
import Idealize.ShloMosaic.PureOps.Ideal.Laws

noncomputable section

open scoped BigOperators

namespace Cert.KernelIdeal.Gen

open Idealize.ShloMosaic Idealize.SL.Sem Idealize.ShloMosaic.ValueIdx

/-! ### Queries against keys, both contracted on their last axis: entry (p, c) is the inner product of query row p and key row c -/

theorem scores_lhs_c (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem scores_lhs_n (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem scores_rhs_c (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q
theorem scores_rhs_n (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl

theorem scores_apply (l : FVec Ideal S1024x64 .bf16) (r : FVec Ideal S2048x64 .bf16) (p : Fin 1024) (c : Fin 2048) :
    matmul dot_S1024x64_S2048x64_S1024x2048_1_1_0_0_n_n none l r (constant (F := Ideal) S1024x2048 .f32 0x00000000#32) (ix2 p c)
      = ∑ k : Fin 64, l (ix2 p k) * r (ix2 c k) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 p c) ((contrEquiv1 dot_S1024x64_S2048x64_S1024x2048_1_1_0_0_n_n 64 rfl rfl).symm k) = ix2 p k := funext fun a => Fin.ext (by
    match a with
    | ⟨0, _⟩ => exact scores_lhs_n _ _
    | ⟨1, _⟩ => exact (scores_lhs_c _ _).trans hk)
  have er : dot_S1024x64_S2048x64_S1024x2048_1_1_0_0_n_n.rhsIdx (ix2 p c) ((contrEquiv1 dot_S1024x64_S2048x64_S1024x2048_1_1_0_0_n_n 64 rfl rfl).symm k) = ix2 c k := funext fun a => Fin.ext (by
    match a with
    | ⟨0, _⟩ => exact scores_rhs_n _ _
    | ⟨1, _⟩ => exact (scores_rhs_c _ _).trans hk)
  rw [el, er]

/-! ### Squared scores against the extended values: entry (p, c) sums, over the key rows, the squared score times the extended value -/

theorem quad_lhs_c (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem quad_lhs_n (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem quad_rhs_c (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem quad_rhs_n (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem quad_apply (l : FVec Ideal S1024x2048 .bf16) (r : FVec Ideal S2048x128 .bf16) (p : Fin 1024) (c : Fin 128) :
    matmul dot_S1024x2048_S2048x128_S1024x128_1_0_0_1_n_n none l r (constant (F := Ideal) S1024x128 .f32 0x00000000#32) (ix2 p c)
      = ∑ k : Fin 2048, l (ix2 p k) * r (ix2 k c) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p c) ((contrEquiv1 dot_S1024x2048_S2048x128_S1024x128_1_0_0_1_n_n 2048 rfl rfl).symm k) = ix2 p k := funext fun a => Fin.ext (by
    match a with
    | ⟨0, _⟩ => exact quad_lhs_n _ _
    | ⟨1, _⟩ => exact (quad_lhs_c _ _).trans hk)
  have er : dot_S1024x2048_S2048x128_S1024x128_1_0_0_1_n_n.rhsIdx (ix2 p c) ((contrEquiv1 dot_S1024x2048_S2048x128_S1024x128_1_0_0_1_n_n 2048 rfl rfl).symm k) = ix2 k c := funext fun a => Fin.ext (by
    match a with
    | ⟨0, _⟩ => exact (quad_rhs_c _ _).trans hk
    | ⟨1, _⟩ => exact quad_rhs_n _ _)
  rw [el, er]

/-! ### Queries against the key-value product: entry (p, c) sums, over the 64 features, the query entry times the product's entry -/

theorem lin_lhs_c (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem lin_lhs_n (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lin_rhs_c (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem lin_rhs_n (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

theorem lin_apply (l : FVec Ideal S1024x64 .bf16) (r : FVec Ideal S64x128 .bf16) (p : Fin 1024) (c : Fin 128) :
    matmul dot_S1024x64_S64x128_S1024x128_1_0_0_1_n_n none l r (constant (F := Ideal) S1024x128 .f32 0x00000000#32) (ix2 p c)
      = ∑ k : Fin 64, l (ix2 p k) * r (ix2 k c) := by
  simp only [matmul]
  rw [Ideal.matmul_constant_zero_apply, ← Equiv.sum_comp (contrEquiv1 dot_S1024x64_S64x128_S1024x128_1_0_0_1_n_n 64 rfl rfl).symm]
  refine Finset.sum_congr rfl fun k _ => ?_
  have hk := contrEquiv1_symm_val dot_S1024x64_S64x128_S1024x128_1_0_0_1_n_n 64 rfl rfl k
  have el : dot_S1024x64_S64x128_S1024x128_1_0_0_1_n_n.lhsIdx (ix2 p c) ((contrEquiv1 dot_S1024x64_S64x128_S1024x128_1_0_0_1_n_n 64 rfl rfl).symm k) = ix2 p k := funext fun a => Fin.ext (by
    match a with
    | ⟨0, _⟩ => exact lin_lhs_n _ _
    | ⟨1, _⟩ => exact (lin_lhs_c _ _).trans hk)
  have er : dot_S1024x64_S64x128_S1024x128_1_0_0_1_n_n.rhsIdx (ix2 p c) ((contrEquiv1 dot_S1024x64_S64x128_S1024x128_1_0_0_1_n_n 64 rfl rfl).symm k) = ix2 k c := funext fun a => Fin.ext (by
    match a with
    | ⟨0, _⟩ => exact (lin_rhs_c _ _).trans hk
    | ⟨1, _⟩ => exact lin_rhs_n _ _)
  rw [el, er]

/-! ### Keys against the extended values, both contracted on their row axis: entry (p, c) sums, over the rows, key feature p times extended value column c -/

theorem keyval_lhs_c (i : S64x128.Idx) (q : dot_S2048x64_S2048x128_S64x128_0_0_1_1_n_n.contr.Idx) :
    (dot_S2048x64_S2048x128_S64x128_0_0_1_1_n_n.lhsIdx i q 0).val = (q ⟨0, by decide⟩).val :=
  dot_S2048x64_S2048x128_S64x128_0_0_1_1_n_n.lhsIdx_val_of_single rfl i q
theorem keyval_lhs_n (i : S64x128.Idx) (q : dot_S2048x64_S2048x128_S64x128_0_0_1_1_n_n.contr.Idx) :
    (dot_S2048x64_S2048x128_S64x128_0_0_1_1_n_n.lhsIdx i q 1).val = (i 0).val := by
  unfold DotDims.lhsIdx
  rw [dif_neg (show ¬(1 : Fin S2048x64.rank) ∈ dot_S2048x64_S2048x128_S64x128_0_0_1_1_n_n.lhsBatch by decide), dif_pos (show (1 : Fin S2048x64.rank) ∈ dot_S2048x64_S2048x128_S64x128_0_0_1_1_n_n.lhsNonContracting by decide)]
  rfl
theorem keyval_rhs_c (i : S64x128.Idx) (q : dot_S2048x64_S2048x128_S64x128_0_0_1_1_n_n.contr.Idx) :
    (dot_S2048x64_S2048x128_S64x128_0_0_1_1_n_n.rhsIdx i q 0).val = (q ⟨0, by decide⟩).val :=
  dot_S2048x64_S2048x128_S64x128_0_0_1_1_n_n.rhsIdx_val_of_single rfl i q
theorem keyval_rhs_n (i : S64x128.Idx) (q : dot_S2048x64_S2048x128_S64x128_0_0_1_1_n_n.contr.Idx) :
    (dot_S2048x64_S2048x128_S64x128_0_0_1_1_n_n.rhsIdx i q 1).val = (i 1).val := by
  unfold DotDims.rhsIdx
  rw [dif_neg (show ¬(1 : Fin S2048x128.rank) ∈ dot_S2048x64_S2048x128_S64x128_0_0_1_1_n_n.rhsBatch by decide), dif_pos (show (1 : Fin S2048x128.rank) ∈ dot_S2048x64_S2048x128_S64x128_0_0_1_1_n_n.rhsNonContracting by decide)]
  rfl

theorem keyval_apply (l : FVec Ideal S2048x64 .bf16) (r : FVec Ideal S2048x128 .bf16) (p : Fin 64) (c : Fin 128) :
    matmul dot_S2048x64_S2048x128_S64x128_0_0_1_1_n_n none l r (constant (F := Ideal) S64x128 .f32 0x00000000#32) (ix2 p c)
      = ∑ k : Fin 2048, l (ix2 k p) * r (ix2 k c) := by
  simp only [matmul]
  rw [Ideal.matmul_constant_zero_apply, ← Equiv.sum_comp (contrEquiv1 dot_S2048x64_S2048x128_S64x128_0_0_1_1_n_n 2048 rfl rfl).symm]
  refine Finset.sum_congr rfl fun k _ => ?_
  have hk := contrEquiv1_symm_val dot_S2048x64_S2048x128_S64x128_0_0_1_1_n_n 2048 rfl rfl k
  have el : dot_S2048x64_S2048x128_S64x128_0_0_1_1_n_n.lhsIdx (ix2 p c) ((contrEquiv1 dot_S2048x64_S2048x128_S64x128_0_0_1_1_n_n 2048 rfl rfl).symm k) = ix2 k p := funext fun a => Fin.ext (by
    match a with
    | ⟨0, _⟩ => exact (keyval_lhs_c _ _).trans hk
    | ⟨1, _⟩ => exact keyval_lhs_n _ _)
  have er : dot_S2048x64_S2048x128_S64x128_0_0_1_1_n_n.rhsIdx (ix2 p c) ((contrEquiv1 dot_S2048x64_S2048x128_S64x128_0_0_1_1_n_n 2048 rfl rfl).symm k) = ix2 k c := funext fun a => Fin.ext (by
    match a with
    | ⟨0, _⟩ => exact (keyval_rhs_c _ _).trans hk
    | ⟨1, _⟩ => exact keyval_rhs_n _ _)
  rw [el, er]

end Cert.KernelIdeal.Gen

end
-- ==== Proof.KIBlockScratch.lean ====
/-
  The two scratch buffers the body reads through, at an index. The value scratch at column 0 holds one and at column
  e + 1 holds the value block's column e; the bias row at column 0 holds the number of rows and at column e + 1 the sum
  of the value block's column e over the rows.
-/
import proofs.«129592_j25984552141257_2_alg».proof.Proof.KIScratch
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Gen

open Idealize.ShloMosaic Idealize.SL.Sem Idealize.ShloMosaic.ValueIdx

/-- The bf16 word 0x3F80 denotes one. -/
theorem ofBits_bf16_one : Ideal.ofBits .bf16 0x3F80#16 = 1 := by
  simp [Ideal.ofBits, Ideal.ieee, -EReal.coe_mul]; norm_num

/-- The f32 word 0x45000000 denotes 2048. -/
theorem ofBits_f32_2048 : Ideal.ofBits .f32 0x45000000#32 = (2048 : EReal) := by
  simp [Ideal.ofBits, Ideal.ieee, -EReal.coe_mul]; norm_num
  exact_mod_cast rfl

/-- An index of a matrix whose column lies left of a rectangle's first column is not in the rectangle. -/
theorem not_mem_of_col_lt {n0 n1 : Nat} (R : Rect (⟨2, ![n0, n1]⟩ : Shape)) (p : Fin n0) (c : Fin n1)
    (h : c.val < R.off 1) : ix2 p c ∉ R.set := fun hm => by
  obtain ⟨j, _, hj⟩ := R.toLoadRect.mem_set.mp hm 1
  have hc : ((ix2 p c (1 : Fin 2) : Fin n1) : ℕ) = c.val := rfl
  have hj' : c.val = R.off 1 + R.stride 1 * j := hc ▸ hj
  omega

/-- The value block with its leading unit axis dropped, at (m, e). -/
theorem valueRows_apply (x2 : Vec Ideal S1x2048x64 .f32) (m : Fin 2048) (e : Fin 64) :
    k0_pay7 (F := Ideal) x2 (ix2 m e) = x2 (ix3 (0 : Fin 1) m e) := by
  unfold k0_pay7
  exact shapeCast_1ab_ab_apply x2 _ m e

/-- The value scratch at column 0: one. -/
theorem valsExt_zero (x2 : Vec Ideal S1x2048x64 .f32) (m : Fin 2048) :
    valsExt (F := Ideal) x2 (ix2 m (0 : Fin 128)) = 1 := by
  unfold valsExt
  refine (View.canon_cons_of_not_mem _ _ ?_).trans ?_
  · exact not_mem_of_col_lt _ _ _ (by show (0 : ℕ) < 65; omega)
  refine (View.canon_cons_of_not_mem _ _ ?_).trans ?_
  · exact not_mem_of_col_lt _ _ _ (by show (0 : ℕ) < 1; omega)
  have he : (ix2 m (0 : Fin 128) : S2048x128.Idx)
      = (Rect.unit (s := S2048x128) ![0, 0] S2048x1.size inb_S2048x128_S2048x1_0_0).emb (ix2 m (0 : Fin 1)) :=
    funext fun a => Fin.ext (by
      match a with
      | ⟨0, _⟩ => show m.val = 0 + 1 * m.val; omega
      | ⟨1, _⟩ => rfl)
  rw [he, View.canon_cons_emb]
  unfold k0_pay8
  rw [shapeCast_self]
  exact ofBits_bf16_one

/-- The value scratch at column e + 1: the value block's column e. -/
theorem valsExt_succ (x2 : Vec Ideal S1x2048x64 .f32) (m : Fin 2048) (e : Fin 64) :
    valsExt (F := Ideal) x2 (ix2 m (⟨e.val + 1, by omega⟩ : Fin 128)) = x2 (ix3 (0 : Fin 1) m e) := by
  unfold valsExt
  refine (View.canon_cons_of_not_mem _ _ ?_).trans ?_
  · exact not_mem_of_col_lt _ _ _ (by show e.val + 1 < 65; omega)
  have he : (ix2 m (⟨e.val + 1, by omega⟩ : Fin 128) : S2048x128.Idx)
      = (Rect.unit (s := S2048x128) ![0, 1] S2048x64.size inb_S2048x128_S2048x64_0_1).emb (ix2 m e) :=
    funext fun a => Fin.ext (by
      match a with
      | ⟨0, _⟩ => show m.val = 0 + 1 * m.val; omega
      | ⟨1, _⟩ => show e.val + 1 = 1 + 1 * e.val; omega)
  rw [he, View.canon_cons_emb]
  unfold k0_pay9
  rw [shapeCast_self]
  exact valueRows_apply x2 m e

/-- The bias row reads row 0 of the bias scratch. -/
theorem biasRow_eq (x2 : Vec Ideal S1x2048x64 .f32) (c : Fin 128) :
    biasRow (F := Ideal) x2 (ix2 (0 : Fin 1) c) = biasFull (F := Ideal) x2 (ix2 (0 : Fin 8) c) := by
  unfold biasRow
  show biasFull (F := Ideal) x2 (biasRect.idx (ix2 (0 : Fin 1) c)) = _
  refine congrArg _ (funext fun a => Fin.ext ?_)
  match a with
  | ⟨0, _⟩ => rfl
  | ⟨1, _⟩ => show 0 + 1 * c.val = c.val; omega

/-- The bias row at column 0: the number of rows. -/
theorem biasRow_zero (x2 : Vec Ideal S1x2048x64 .f32) :
    biasRow (F := Ideal) x2 (ix2 (0 : Fin 1) (0 : Fin 128)) = (2048 : EReal) := by
  rw [biasRow_eq]
  unfold biasFull
  refine (View.canon_cons_of_not_mem _ _ ?_).trans ?_
  · exact not_mem_of_col_lt _ _ _ (by show (0 : ℕ) < 65; omega)
  refine (View.canon_cons_of_not_mem _ _ ?_).trans ?_
  · exact not_mem_of_col_lt _ _ _ (by show (0 : ℕ) < 1; omega)
  have he : (ix2 (0 : Fin 8) (0 : Fin 128) : S8x128.Idx)
      = (Rect.unit (s := S8x128) ![0, 0] S1x1.size inb_S8x128_S1x1_0_0).emb (ix2 (0 : Fin 1) (0 : Fin 1)) :=
    funext fun a => Fin.ext (by
      match a with
      | ⟨0, _⟩ => rfl
      | ⟨1, _⟩ => rfl)
  rw [he, View.canon_cons_emb]
  unfold k0_pay1 k0_pay13
  rw [shapeCast_self]
  exact ofBits_f32_2048

/-- The bias row at column e + 1: the sum of the value block's column e over its rows. -/
theorem biasRow_succ (x2 : Vec Ideal S1x2048x64 .f32) (e : Fin 64) :
    biasRow (F := Ideal) x2 (ix2 (0 : Fin 1) (⟨e.val + 1, by omega⟩ : Fin 128)) = ∑ m : Fin 2048, x2 (ix3 (0 : Fin 1) m e) := by
  rw [biasRow_eq]
  unfold biasFull
  refine (View.canon_cons_of_not_mem _ _ ?_).trans ?_
  · exact not_mem_of_col_lt _ _ _ (by show e.val + 1 < 65; omega)
  have he : (ix2 (0 : Fin 8) (⟨e.val + 1, by omega⟩ : Fin 128) : S8x128.Idx)
      = (Rect.unit (s := S8x128) ![0, 1] S1x64.size inb_S8x128_S1x64_0_1).emb (ix2 (0 : Fin 1) e) :=
    funext fun a => Fin.ext (by
      match a with
      | ⟨0, _⟩ => rfl
      | ⟨1, _⟩ => show e.val + 1 = 1 + 1 * e.val; omega)
  rw [he, View.canon_cons_emb]
  unfold k0_pay2 k0_pay12
  rw [shapeCast_self]
  refine (shapeCast_a_1a_apply _ _ (0 : Fin 1) e).trans ?_
  refine (Ideal.multiReduction_add_single (k0_pay7 (F := Ideal) x2) _ reduces_S2048x64_S64 _ _ (ix1 e)).trans ?_
  refine Finset.sum_congr rfl fun k _ => ?_
  have hl : reduces_S2048x64_S64.lift (ix1 e) k = ix2 k e := funext fun a => Fin.ext (by
    match a with
    | ⟨0, _⟩ => rfl
    | ⟨1, _⟩ => rfl)
  rw [hl]
  exact valueRows_apply x2 k e

end Cert.KernelIdeal.Gen

end
-- ==== Proof.KIBlockBody.lean ====
/-
  The body's output payload read at an index. With Y the 128-column matrix the body forms before it divides,

      Y r c = (1/2 · Σ_m (s r m)² · V m c + Σ_d Q r d · B d c) + b c,      s r m = Σ_d Q r d · K m d,

  over the query block Q, the key scratch K, the value scratch V, the key-value scratch B and the bias row b, the
  output at (0, r, e) is Y r (e + 1) divided by Y r 0.
-/
import proofs.«129592_j25984552141257_2_alg».proof.Proof.KIBlockDots
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Gen

open Idealize.ShloMosaic Idealize.SL.Sem Idealize.ShloMosaic.ValueIdx

/-- One column broadcast over many: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The query block's rows, as the matrix products read them. -/
def queryRows (v3 : Vec Ideal S1x1024x64 .f32) : FVec Ideal S1024x64 .bf16 :=
  truncf .bf16 (shapeCast S1024x64 v3 shapeCasts_S1x1024x64_S1024x64) bitsLt_bf16_f32

theorem queryRows_apply (v3 : Vec Ideal S1x1024x64 .f32) (r : Fin 1024) (d : Fin 64) :
    queryRows v3 (ix2 r d) = v3 (ix3 (0 : Fin 1) r d) := by
  unfold queryRows
  show shapeCast S1024x64 v3 shapeCasts_S1x1024x64_S1024x64 (ix2 r d) = _
  exact shapeCast_1ab_ab_apply v3 _ r d

/-- The matrix the body forms before it divides. -/
def yMat (v3 : Vec Ideal S1x1024x64 .f32) (v6 : FVec Ideal S2048x64 .bf16) (v10 : FVec Ideal S2048x128 .bf16)
    (v12 : FVec Ideal S64x128 .f32) (v18 : FVec Ideal S1x128 .f32) : FVec Ideal S1024x128 .f32 :=
  addf
    (addf
      (mulf (broadcast S1024x128 (Scalar.ofBits (F := Ideal) .f32 0x3F000000#32))
        (matmul dot_S1024x2048_S2048x128_S1024x128_1_0_0_1_n_n none
          (mulf
            (truncf .bf16 (matmul dot_S1024x64_S2048x64_S1024x2048_1_1_0_0_n_n none (queryRows v3) v6 (constant (F := Ideal) S1024x2048 .f32 0x00000000#32)) bitsLt_bf16_f32)
            (truncf .bf16 (matmul dot_S1024x64_S2048x64_S1024x2048_1_1_0_0_n_n none (queryRows v3) v6 (constant (F := Ideal) S1024x2048 .f32 0x00000000#32)) bitsLt_bf16_f32))
          v10 (constant (F := Ideal) S1024x128 .f32 0x00000000#32)))
      (matmul dot_S1024x64_S64x128_S1024x128_1_0_0_1_n_n none (queryRows v3) (truncf .bf16 v12 bitsLt_bf16_f32) (constant (F := Ideal) S1024x128 .f32 0x00000000#32)))
    (broadcastTo S1024x128 v18 broadcasts_S1x128_S1024x128)

/-- The payload is the quotient of two column ranges of that matrix. -/
theorem k0_pay4_eq (v3 : Vec Ideal S1x1024x64 .f32) (v6 : FVec Ideal S2048x64 .bf16) (v10 : FVec Ideal S2048x128 .bf16)
    (v12 : FVec Ideal S64x128 .f32) (v18 : FVec Ideal S1x128 .f32) :
    k0_pay4 (F := Ideal) v3 v6 v10 v12 v18
      = shapeCast S1x1024x64
          (divf (extractStridedSlice S1024x64 ![0, 1] (yMat v3 v6 v10 v12 v18) slices_S1024x128_o0_1_S1024x64)
            (broadcastTo S1024x64 (extractStridedSlice S1024x1 ![0, 0] (yMat v3 v6 v10 v12 v18) slices_S1024x128_o0_0_S1024x1)
              broadcasts_S1024x1_S1024x64))
          shapeCasts_S1024x64_S1x1024x64 := rfl

/-- Entry (r, c) of the matrix, written out. -/
def yEntry (v3 : Vec Ideal S1x1024x64 .f32) (v6 : FVec Ideal S2048x64 .bf16) (v10 : FVec Ideal S2048x128 .bf16)
    (v12 : FVec Ideal S64x128 .f32) (v18 : FVec Ideal S1x128 .f32) (r : Fin 1024) (c : Fin 128) : EReal :=
  (Ideal.ofBits .f32 0x3F000000#32
      * (∑ m : Fin 2048, ((∑ d : Fin 64, v3 (ix3 (0 : Fin 1) r d) * v6 (ix2 m d)) * (∑ d : Fin 64, v3 (ix3 (0 : Fin 1) r d) * v6 (ix2 m d))) * v10 (ix2 m c))
    + ∑ d : Fin 64, v3 (ix3 (0 : Fin 1) r d) * v12 (ix2 d c))
  + v18 (ix2 (0 : Fin 1) c)

theorem yMat_apply (v3 : Vec Ideal S1x1024x64 .f32) (v6 : FVec Ideal S2048x64 .bf16) (v10 : FVec Ideal S2048x128 .bf16)
    (v12 : FVec Ideal S64x128 .f32) (v18 : FVec Ideal S1x128 .f32) (r : Fin 1024) (c : Fin 128) :
    yMat v3 v6 v10 v12 v18 (ix2 r c) = yEntry v3 v6 v10 v12 v18 r c := by
  unfold yMat yEntry
  simp only [addf_apply, mulf_apply, broadcast_apply, truncf_apply, quad_apply, lin_apply, scores_apply, queryRows_apply,
    broadcastTo_1b_ab_apply]
  rfl

/-- The payload at (0, r, e): entry (r, e + 1) of the matrix over entry (r, 0). -/
theorem k0_pay4_apply (v3 : Vec Ideal S1x1024x64 .f32) (v6 : FVec Ideal S2048x64 .bf16) (v10 : FVec Ideal S2048x128 .bf16)
    (v12 : FVec Ideal S64x128 .f32) (v18 : FVec Ideal S1x128 .f32) (r : Fin 1024) (e : Fin 64) :
    k0_pay4 (F := Ideal) v3 v6 v10 v12 v18 (ix3 (0 : Fin 1) r e)
      = Ideal.div (yEntry v3 v6 v10 v12 v18 r (⟨e.val + 1, by omega⟩ : Fin 128)) (yEntry v3 v6 v10 v12 v18 r (0 : Fin 128)) := by
  rw [k0_pay4_eq]
  refine (shapeCast_ab_1ab_apply _ _ (0 : Fin 1) r e).trans ?_
  refine (divf_apply _ _ _).trans ?_
  rw [slice2_axis1_apply 1 _ _ r e (⟨e.val + 1, by omega⟩ : Fin 128) (by show e.val + 1 = 1 + e.val; omega),
    broadcastTo_a1_ab_apply,
    slice2_axis1_apply 0 _ _ r (0 : Fin 1) (0 : Fin 128) rfl,
    yMat_apply, yMat_apply]

end Cert.KernelIdeal.Gen

end
-- ==== Proof.KIBlockAt.lean ====
/-
  The output block at an index, against the specification. The key scratch holds the key block; the key-value scratch
  at (d, c) holds Σ_m K m d · V m c over the value scratch V; V at column j of the first 65 is the specification's
  extended value row at j, and the bias row there is the specification's zeroth-order term. So the matrix the body forms
  before it divides is, at row r and column j, the specification's un-normalised result at the query row the block's
  row r holds, and the output is its column e + 1 over its column 0.
-/
import proofs.«129592_j25984552141257_2_alg».proof.Proof.KIScratch
import proofs.«129592_j25984552141257_2_alg».proof.Proof.TaylorSpec
import proofs.«129592_j25984552141257_2_alg».proof.Proof.KIBlockDots
import proofs.«129592_j25984552141257_2_alg».proof.Proof.KIBlockScratch
import proofs.«129592_j25984552141257_2_alg».proof.Proof.KIBlockBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Gen

open Idealize.ShloMosaic Idealize.SL.Sem Idealize.ShloMosaic.ValueIdx

/-- The key block with its leading unit axis dropped, at (m, d). -/
theorem keyRows_apply (x1 : Vec Ideal S1x2048x64 .f32) (m : Fin 2048) (d : Fin 64) :
    k0_pay5 (F := Ideal) x1 (ix2 m d) = x1 (ix3 (0 : Fin 1) m d) := by
  unfold k0_pay5
  show shapeCast S2048x64 x1 shapeCasts_S1x2048x64_S2048x64 (ix2 m d) = _
  exact shapeCast_1ab_ab_apply x1 _ m d

/-- The key scratch at (m, d): the key block there. -/
theorem keyScratch_apply (x1 : Vec Ideal S1x2048x64 .f32) (m : Fin 2048) (d : Fin 64) :
    k0_pay6 (F := Ideal) x1 (ix2 m d) = x1 (ix3 (0 : Fin 1) m d) := by
  unfold k0_pay6
  rw [shapeCast_self]
  exact keyRows_apply x1 m d

/-- The key-value scratch at (d, c): the sum over the rows of key feature d times the value scratch's column c. -/
theorem keyvalScratch_apply (x1 : Vec Ideal S1x2048x64 .f32) (V : FVec Ideal S2048x128 .bf16) (d : Fin 64) (c : Fin 128) :
    k0_pay11 (F := Ideal) x1 V (ix2 d c) = ∑ m : Fin 2048, x1 (ix3 (0 : Fin 1) m d) * V (ix2 m c) := by
  unfold k0_pay11
  rw [shapeCast_self]
  refine (keyval_apply _ _ d c).trans ?_
  exact Finset.sum_congr rfl fun m _ => by rw [keyRows_apply]

/-- The value scratch at column j of its first 65: the specification's extended value row at j. -/
theorem valsExt_withOne (x2 : Vec Ideal S1x2048x64 .f32) (m : Fin 2048) (j : Fin 65) :
    valsExt (F := Ideal) x2 (ix2 m (⟨j.val, by omega⟩ : Fin 128))
      = Cert.TaylorSpec.withOne (fun m d => x2 (ix3 (0 : Fin 1) m d)) m j := by
  unfold Cert.TaylorSpec.withOne
  cases j using Fin.cases with
  | zero => rw [Fin.cases_zero]; exact valsExt_zero x2 m
  | succ e => rw [Fin.cases_succ]; exact valsExt_succ x2 m e

/-- The bias row at column j of its first 65: the specification's zeroth-order term at j. -/
theorem biasRow_spec (x2 : Vec Ideal S1x2048x64 .f32) (j : Fin 65) :
    biasRow (F := Ideal) x2 (ix2 (0 : Fin 1) (⟨j.val, by omega⟩ : Fin 128))
      = Fin.cases (2048 : EReal) (fun e => ∑ m : Fin 2048, x2 (ix3 (0 : Fin 1) m e)) j := by
  cases j using Fin.cases with
  | zero => rw [Fin.cases_zero]; exact biasRow_zero x2
  | succ e => rw [Fin.cases_succ]; exact biasRow_succ x2 e

/-- The matrix the body forms before it divides, over the scratch contents, at row r and column j of the first 65: the
    specification's un-normalised result at the query row that row r of the block holds. -/
theorem yEntry_spec (x0 : Vec Ideal S1x1024x64 .f32) (x1 x2 : Vec Ideal S1x2048x64 .f32)
    (q : Fin 2048 → Fin 64 → EReal) (n : Fin 2048) (r : Fin 1024)
    (hq : ∀ d, q n d = x0 (ix3 (0 : Fin 1) r d)) (j : Fin 65) :
    yEntry x0 (k0_pay6 (F := Ideal) x1) (valsExt (F := Ideal) x2) (k0_pay11 (F := Ideal) x1 (valsExt (F := Ideal) x2))
        (biasRow (F := Ideal) x2) r (⟨j.val, by omega⟩ : Fin 128)
      = Cert.TaylorSpec.yAt q (fun m d => x1 (ix3 (0 : Fin 1) m d)) (fun m d => x2 (ix3 (0 : Fin 1) m d)) n j := by
  unfold yEntry Cert.TaylorSpec.yAt Cert.TaylorSpec.score
  simp only [keyScratch_apply, keyvalScratch_apply, valsExt_withOne, biasRow_spec, hq]

/-- THE OUTPUT BLOCK AT (0, r, e): the specification's result, column e + 1 of the un-normalised result over column 0,
    at the query row n whose entries row r of the query block holds. -/
theorem outBlock_apply (x0 : Vec Ideal S1x1024x64 .f32) (x1 x2 : Vec Ideal S1x2048x64 .f32)
    (q : Fin 2048 → Fin 64 → EReal) (n : Fin 2048) (r : Fin 1024) (e : Fin 64)
    (hq : ∀ d, q n d = x0 (ValueIdx.ix3 (0 : Fin 1) r d)) :
    outBlock (F := Ideal) x0 x1 x2 (ValueIdx.ix3 (0 : Fin 1) r e)
      = Ideal.div (Cert.TaylorSpec.yAt q (fun m d => x1 (ValueIdx.ix3 (0 : Fin 1) m d)) (fun m d => x2 (ValueIdx.ix3 (0 : Fin 1) m d)) n e.succ)
                  (Cert.TaylorSpec.yAt q (fun m d => x1 (ValueIdx.ix3 (0 : Fin 1) m d)) (fun m d => x2 (ValueIdx.ix3 (0 : Fin 1) m d)) n 0) := by
  unfold outBlock
  rw [k0_pay4_apply]
  exact congrArg₂ Ideal.div (yEntry_spec x0 x1 x2 q n r hq e.succ) (yEntry_spec x0 x1 x2 q n r hq 0)

end Cert.KernelIdeal.Gen

end
-- ==== Proof.KIValue.lean ====
/-
  The kernel's result, at the ideal values, is the specification.

  After grid point t the output's staging buffer holds `outBlock` of the point's query block and the pair's key and
  value blocks; read at an entry that is the specification's `result` at batch (t div 2) div 8, head (t div 2) mod 8,
  row 1024·(t mod 2) + r. Every point writes its block back, the 32 blocks tile the flattened result [16, 2048, 64],
  and the host's last line unflattens it to [2, 8, 2048, 64].
-/
import proofs.«129592_j25984552141257_2_alg».proof.Proof.KIReads
import proofs.«129592_j25984552141257_2_alg».proof.Proof.KIBlockAt
import proofs.«129592_j25984552141257_2_alg».proof.Proof.TaylorSpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The argument by coordinates: part (queries, keys, values), batch, head, row, column. -/
def argAt (c : Dev nD) : Fin 3 → Fin 2 → Fin 8 → Fin 2048 → Fin 64 → EReal :=
  fun s b h n d => (m ((c : Thread nD τ).loc main_arg0) : S3x2x8x2048x64.Idx → EReal) (ix5 s b h n d)

/-- The flattened result: pair p is batch p div 8, head p mod 8. -/
def flatOut (c : Dev nD) : S16x2048x64.Idx → EReal := fun i =>
  Cert.TaylorSpec.result (argAt m c) ⟨(i 0).val / 8, Nat.div_lt_of_lt_mul (show (i 0).val < 8 * 2 from (i 0).isLt)⟩
    ⟨(i 0).val % 8, Nat.mod_lt _ (by decide)⟩ (i 1) (i 2)

/-- The flattened result at an entry whose pair is 8·b + h. -/
theorem flatOut_apply (c : Dev nD) (i : S16x2048x64.Idx) (b : Fin 2) (h : Fin 8) (n : Fin 2048) (e : Fin 64)
    (hb : (i 0).val = 8 * b.val + h.val) (hn : (i 1).val = n.val) (he : (i 2).val = e.val) :
    flatOut m c i = Cert.TaylorSpec.result (argAt m c) b h n e := by
  unfold flatOut
  have e0 : (⟨(i 0).val / 8, Nat.div_lt_of_lt_mul (show (i 0).val < 8 * 2 from (i 0).isLt)⟩ : Fin 2) = b :=
    Fin.ext (by show (i 0).val / 8 = b.val; have := h.isLt; omega)
  have e1 : (⟨(i 0).val % 8, Nat.mod_lt _ (by decide)⟩ : Fin 8) = h :=
    Fin.ext (by show (i 0).val % 8 = h.val; have := h.isLt; omega)
  have e2 : (i 1 : Fin 2048) = n := Fin.ext hn
  have e3 : (i 2 : Fin 64) = e := Fin.ext he
  rw [e0, e1, e2, e3]

theorem q_entry (c : Dev nD) (t : Fin cfg0.N) (r : Fin 1024) (d : Fin 64) (b : Fin 2) (h : Fin 8)
    (hbh : t.val / 2 = 8 * b.val + h.val) (n : Fin 2048) (hn : n.val = (t.val % 2) * 1024 + r.val) :
    qBlk m c t (ix3 (0 : Fin 1) r d) = argAt m c 0 b h n d := by
  have hp : t.val / 2 < 16 := by have := lt_of_lt_of_eq t.isLt (show cfg0.N = 32 from N_0); omega
  rw [qBlk_apply m c t (ix3 (0 : Fin 1) r d) (ix3 ⟨t.val / 2, hp⟩ n d) rfl hn rfl, V_q]
  exact part_apply _ 0 _ rfl _ _ _ ⟨t.val / 2, hp⟩ n d b h hbh

theorem k_entry (c : Dev nD) (t : Fin cfg0.N) (r : Fin 2048) (d : Fin 64) (b : Fin 2) (h : Fin 8)
    (hbh : t.val / 2 = 8 * b.val + h.val) :
    kBlk m c t (ix3 (0 : Fin 1) r d) = argAt m c 1 b h r d := by
  have hp : t.val / 2 < 16 := by have := lt_of_lt_of_eq t.isLt (show cfg0.N = 32 from N_0); omega
  rw [kBlk_apply m c t (ix3 (0 : Fin 1) r d) (ix3 ⟨t.val / 2, hp⟩ r d) rfl rfl rfl, V_k]
  exact part_apply _ 1 _ rfl _ _ _ ⟨t.val / 2, hp⟩ r d b h hbh

theorem v_entry (c : Dev nD) (t : Fin cfg0.N) (r : Fin 2048) (d : Fin 64) (b : Fin 2) (h : Fin 8)
    (hbh : t.val / 2 = 8 * b.val + h.val) :
    vBlk m c t (ix3 (0 : Fin 1) r d) = argAt m c 2 b h r d := by
  have hp : t.val / 2 < 16 := by have := lt_of_lt_of_eq t.isLt (show cfg0.N = 32 from N_0); omega
  rw [vBlk_apply m c t (ix3 (0 : Fin 1) r d) (ix3 ⟨t.val / 2, hp⟩ r d) rfl rfl rfl, V_v]
  exact part_apply _ 2 _ rfl _ _ _ ⟨t.val / 2, hp⟩ r d b h hbh

/-- An entry of the output block at point `t` is the specification there. -/
theorem out_entry (c : Dev nD) (t : Fin cfg0.N) (r : Fin 1024) (e : Fin 64) (b : Fin 2) (h : Fin 8)
    (hbh : t.val / 2 = 8 * b.val + h.val) (n : Fin 2048) (hn : n.val = (t.val % 2) * 1024 + r.val) :
    outBlock (F := Ideal) (qBlk m c t) (kBlk m c (pairStart t)) (vBlk m c (pairStart t)) (ix3 (0 : Fin 1) r e)
      = Cert.TaylorSpec.result (argAt m c) b h n e := by
  have hps : (pairStart t).val / 2 = 8 * b.val + h.val := by
    show 2 * (t.val / 2) / 2 = _; omega
  rw [outBlock_apply _ _ _ (argAt m c 0 b h) n r e (fun d => (q_entry m c t r d b h hbh n hn).symm)]
  have hk : (fun mm d => kBlk m c (pairStart t) (ix3 (0 : Fin 1) mm d)) = argAt m c 1 b h :=
    funext fun mm => funext fun d => k_entry m c (pairStart t) mm d b h hps
  have hv : (fun mm d => vBlk m c (pairStart t) (ix3 (0 : Fin 1) mm d)) = argAt m c 2 b h :=
    funext fun mm => funext fun d => v_entry m c (pairStart t) mm d b h hps
  rw [hk, hv]
  rfl

/-- What point `t` writes back is its block of the flattened result. -/
theorem flushed_eq (c : Dev nD) (t : Fin cfg0.N) :
    (dats m 0 c).flushed 3 t = ((cfg0.win 3).blk t).view.read (Elt Ideal) (flatOut m c) := by
  obtain ⟨o0, o1, o2⟩ := oIndex t
  have hN : t.val < 32 := lt_of_lt_of_eq t.isLt (show cfg0.N = 32 from N_0)
  show (cfg0.win 3).cut (grid0.coords t) ((dats m 0 c).after 3 t) = _
  rw [after0_3]
  funext y
  rw [View.read_apply]
  show outBlock (F := Ideal) (qBlk m c t) (kBlk m c (pairStart t)) (vBlk m c (pairStart t)) y = flatOut m c (((cfg0.win 3).blk t).view.emb y)
  have hy0 : (y 0).val = 0 := Nat.lt_one_iff.mp (y 0).isLt
  have hy1 : (y 1).val < 1024 := (y 1).isLt
  have hy : (y : S1x1024x64.Idx) = ix3 (0 : Fin 1) (y 1) (y 2) := funext fun a => by
    match a with
    | ⟨0, _⟩ => exact Fin.ext hy0
    | ⟨1, _⟩ => rfl
    | ⟨2, _⟩ => rfl
  refine (congrArg (outBlock (F := Ideal) (qBlk m c t) (kBlk m c (pairStart t)) (vBlk m c (pairStart t))) hy).trans ?_
  refine (out_entry m c t (y 1) (y 2) ⟨t.val / 2 / 8, by omega⟩ ⟨t.val / 2 % 8, Nat.mod_lt _ (by decide)⟩ (by show t.val / 2 = 8 * (t.val / 2 / 8) + t.val / 2 % 8; omega)
    ⟨(t.val % 2) * 1024 + (y 1).val, by omega⟩ rfl).trans ?_
  refine (flatOut_apply m c _ ⟨t.val / 2 / 8, by omega⟩ ⟨t.val / 2 % 8, Nat.mod_lt _ (by decide)⟩ ⟨(t.val % 2) * 1024 + (y 1).val, by omega⟩ (y 2) ?_ ?_ ?_).symm
  · show win0_3.index t 0 * 1 + 1 * (y 0).val = 8 * (t.val / 2 / 8) + t.val / 2 % 8; rw [o0, hy0]; omega
  · show win0_3.index t 1 * 1024 + 1 * (y 1).val = (t.val % 2) * 1024 + (y 1).val; rw [o1]; omega
  · show win0_3.index t 2 * 64 + 1 * (y 2).val = (y 2).val; rw [o2]; omega

end Cert.KernelIdeal.Gen

end
-- ==== Proof.KIFinal.lean ====
/-
  The whole result array, and the run read as a value.

  The 32 write-backs tile the flattened result [16, 2048, 64]: entry (p, n, e) lies in the block of point
  2·p + n div 1024. So after the run the array holds the specification at every entry, and the host's last line
  unflattens pair p = 8·b + h into batch b and head h.
-/
import proofs.«129592_j25984552141257_2_alg».proof.Proof.KIValue

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- An entry of the flattened result lies in point `t`'s block exactly when each coordinate lies in the block's range. -/
theorem mem_outBlk (t : Fin cfg0.N) (i : S16x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v9).slice (win0_3.rect t)).set ↔ _
  rw [View.set_slice_whole, Rect.mem_set_unit]
  exact Iff.rfl

/-- After the run the flattened result array holds the specification at every entry. -/
theorem final (c : Dev nD) : (dats m 0 c).arrAt 3 cfg0.N = flatOut m c :=
  (dats m 0 c).arrAt_eq_of_cover 3 (flatOut m c) (fun t _ => flushed_eq m c t) fun i => by
    have h0 : (i 0).val < 16 := (i 0).isLt
    have h1 : (i 1).val < 2048 := (i 1).isLt
    have h2 : (i 2).val < 64 := (i 2).isLt
    have hN : cfg0.N = 32 := N_0
    have hlt : 2 * (i 0).val + (i 1).val / 1024 < cfg0.N := by omega
    obtain ⟨o0, o1, o2⟩ := oIndex ⟨2 * (i 0).val + (i 1).val / 1024, hlt⟩
    have ht : (⟨2 * (i 0).val + (i 1).val / 1024, hlt⟩ : Fin cfg0.N).val = 2 * (i 0).val + (i 1).val / 1024 := rfl
    refine ⟨⟨2 * (i 0).val + (i 1).val / 1024, hlt⟩, flush0_3 _, (mem_outBlk _ i).mpr fun a => ?_⟩
    match a with
    | ⟨0, _⟩ =>
      show win0_3.index ⟨2 * (i 0).val + (i 1).val / 1024, hlt⟩ 0 * 1 ≤ (i 0).val ∧ (i 0).val < win0_3.index ⟨2 * (i 0).val + (i 1).val / 1024, hlt⟩ 0 * 1 + 1
      rw [o0, ht]; omega
    | ⟨1, _⟩ =>
      show win0_3.index ⟨2 * (i 0).val + (i 1).val / 1024, hlt⟩ 1 * 1024 ≤ (i 1).val ∧ (i 1).val < win0_3.index ⟨2 * (i 0).val + (i 1).val / 1024, hlt⟩ 1 * 1024 + 1024
      rw [o1, ht]; omega
    | ⟨2, _⟩ =>
      show win0_3.index ⟨2 * (i 0).val + (i 1).val / 1024, hlt⟩ 2 * 64 ≤ (i 2).val ∧ (i 2).val < win0_3.index ⟨2 * (i 0).val + (i 1).val / 1024, hlt⟩ 2 * 64 + 64
      rw [o2]; omega

/-- The result buffer after the host's last line: the flattened result, unflattened. -/
theorem tail_eq (c : Dev nD) :
    Pipeline.afterTail₀ cfgs (dats m) 0 (V0 m) [hostOps1] c main_v10
      = shapeCast S2x8x2048x64 (flatOut m c) shapeCasts_S16x2048x64_S2x8x2048x64 := by
  unfold Pipeline.afterTail₀
  show StableHlo.after hostOps1 _ (Proc.devRef .tc main_v10) = _
  after_results
  rw [(Pipeline.withArrays_arr spec0 launch0.win.arr_inj c _ _ 3).trans (final m c)]
  rfl

/-- The result buffer's contents after the run: the flattened result, unflattened. -/
abbrev resultArr (c : Dev nD) : S2x8x2048x64.Idx → EReal :=
  shapeCast S2x8x2048x64 (flatOut m c) shapeCasts_S16x2048x64_S2x8x2048x64

/-- The unflattened result at batch b, head h, row n, column e is the specification there. -/
theorem unflat_apply (c : Dev nD) (b : Fin 2) (h : Fin 8) (n : Fin 2048) (e : Fin 64) :
    shapeCast S2x8x2048x64 (flatOut m c) shapeCasts_S16x2048x64_S2x8x2048x64 (ix4 b h n e)
      = Cert.TaylorSpec.result (argAt m c) b h n e := by
  have hp : 8 * b.val + h.val < 16 := by have := b.isLt; have := h.isLt; omega
  rw [shapeCast_apply _ _ (ix4 b h n e) (ix3 ⟨8 * b.val + h.val, hp⟩ n e) (by
    rw [Shape.rowMajor_val_three, Shape.rowMajor_val_four]
    show ((8 * b.val + h.val) * 2048 + n.val) * 64 + e.val = ((b.val * 8 + h.val) * 2048 + n.val) * 64 + e.val
    omega)]
  unfold flatOut
  congr 1
  · apply Fin.ext; show (8 * b.val + h.val) / 8 = b.val; have := h.isLt; omega
  · apply Fin.ext; show (8 * b.val + h.val) % 8 = h.val; have := h.isLt; omega

/-- The run, read: the result buffer ends at the unflattened specification, the argument unchanged. -/
theorem run_value : θ_run defs (onTc (τ := τ) (main (F := Ideal))) ⟨m, fun _ => 0, ρ⟩ fun r => ∀ c : Dev nD,
      r.2.mem ((c.tc : Thread nD τ).loc main_v10) = shapeCast S2x8x2048x64 (flatOut m c) shapeCasts_S16x2048x64_S2x8x2048x64
      ∧ r.2.mem ((c.tc : Thread nD τ).loc main_arg0) = m ((c.tc : Thread nD τ).loc main_arg0) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c)⟩)
    (run_main m ρ)

end Cert.KernelIdeal.Gen

end
-- ==== Proof.RefAlgebra.lean ====
/-
  The algebra behind the reference's arrangement of second-order attention.

  The reference forms, for every key row m, the outer product of the row with itself flattened to 4096 entries
  (entry f is k m (f / 64) · k m (f % 64)), sums these against the extended values, and contracts the result with the
  flattened outer product of the query row. The specification instead squares the score q_n · k_m. For real entries

      Σ_f (q (f/64) · q (f%64)) · (Σ_m (k m (f/64) · k m (f%64)) · w m)  =  Σ_m (Σ_d q d · k m d)² · w m,

  by splitting f into its two base-64 digits, expanding the square into a double sum and exchanging the sums. The
  identity uses distributivity, which fails at the infinities of the extended reals, so it is proved over ℝ and carried
  to extended reals whose entries are all real.
-/
import Mathlib
import proofs.«129592_j25984552141257_2_alg».proof.Proof.TaylorSpec

noncomputable section

open scoped BigOperators

namespace Cert.ReferenceIdeal.RefValue

open Idealize.ShloMosaic

/-- The leading base-64 digit of a flattened position. -/
def hi (f : Fin 4096) : Fin 64 := ⟨f.val / 64, by omega⟩

/-- The trailing base-64 digit of a flattened position. -/
def lo (f : Fin 4096) : Fin 64 := ⟨f.val % 64, by omega⟩

/-- A pair of digits and the flattened position they spell. -/
def digits : Fin 4096 ≃ Fin 64 × Fin 64 where
  toFun f := (hi f, lo f)
  invFun p := ⟨p.1.val * 64 + p.2.val, by omega⟩
  left_inv f := Fin.ext (by simp only [hi, lo]; omega)
  right_inv p := Prod.ext (Fin.ext (by simp only [hi]; omega)) (Fin.ext (by simp only [lo]; omega))

/-- A sum over flattened positions of a function of the two digits is the double sum over the digits. -/
theorem sum_digits {M : Type*} [AddCommMonoid M] (g : Fin 64 → Fin 64 → M) :
    ∑ f : Fin 4096, g (hi f) (lo f) = ∑ a : Fin 64, ∑ c : Fin 64, g a c := by
  exact (Fintype.sum_equiv digits (fun f => g (hi f) (lo f)) (fun p => g p.1 p.2) (fun _ => rfl)).trans
    (Fintype.sum_prod_type' g)

/-- The law over the reals. -/
theorem quad_real (q : Fin 64 → ℝ) (k : Fin 2048 → Fin 64 → ℝ) (w : Fin 2048 → ℝ) :
    ∑ f : Fin 4096, (q (hi f) * q (lo f)) * (∑ m, (k m (hi f) * k m (lo f)) * w m)
      = ∑ m, ((∑ d, q d * k m d) * (∑ d, q d * k m d)) * w m := by
  rw [sum_digits (fun a c => (q a * q c) * (∑ m, (k m a * k m c) * w m))]
  have sq : ∀ m, ((∑ d, q d * k m d) * (∑ d, q d * k m d)) * w m
      = ∑ a, ∑ c, (q a * q c) * ((k m a * k m c) * w m) := by
    intro m
    rw [Finset.sum_mul_sum, Finset.sum_mul]
    refine Finset.sum_congr rfl fun a _ => ?_
    rw [Finset.sum_mul]
    refine Finset.sum_congr rfl fun c _ => ?_
    ring
  calc ∑ a, ∑ c, (q a * q c) * (∑ m, (k m a * k m c) * w m)
      = ∑ a, ∑ c, ∑ m, (q a * q c) * ((k m a * k m c) * w m) := by
        refine Finset.sum_congr rfl fun a _ => Finset.sum_congr rfl fun c _ => ?_
        rw [Finset.mul_sum]
    _ = ∑ a, ∑ m, ∑ c, (q a * q c) * ((k m a * k m c) * w m) := by
        refine Finset.sum_congr rfl fun a _ => ?_
        exact Finset.sum_comm
    _ = ∑ m, ∑ a, ∑ c, (q a * q c) * ((k m a * k m c) * w m) := Finset.sum_comm
    _ = ∑ m, ((∑ d, q d * k m d) * (∑ d, q d * k m d)) * w m := by
        refine Finset.sum_congr rfl fun m _ => ?_
        exact (sq m).symm

/-- The inclusion of the reals in the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over extended reals that are images of reals. -/
theorem quad_coe (q : Fin 64 → ℝ) (k : Fin 2048 → Fin 64 → ℝ) (w : Fin 2048 → ℝ) :
    ∑ f : Fin 4096, ((q (hi f) : EReal) * (q (lo f) : EReal))
        * (∑ m, ((k m (hi f) : EReal) * (k m (lo f) : EReal)) * (w m : EReal))
      = ∑ m, ((∑ d, (q d : EReal) * (k m d : EReal)) * (∑ d, (q d : EReal) * (k m d : EReal))) * (w m : EReal) := by
  simp only [← EReal.coe_mul, ← coe_sum]
  rw [quad_real]

/-- The law over extended reals all of whose entries are real. -/
theorem quad_finite (q : Fin 64 → EReal) (k : Fin 2048 → Fin 64 → EReal) (w : Fin 2048 → EReal)
    (hq : ∀ d, ∃ r : ℝ, q d = (r : EReal)) (hk : ∀ m d, ∃ r : ℝ, k m d = (r : EReal))
    (hw : ∀ m, ∃ r : ℝ, w m = (r : EReal)) :
    ∑ f : Fin 4096, (q (hi f) * q (lo f)) * (∑ m, (k m (hi f) * k m (lo f)) * w m)
      = ∑ m, ((∑ d, q d * k m d) * (∑ d, q d * k m d)) * w m := by
  choose qr hqr using hq
  choose kr hkr using hk
  choose wr hwr using hw
  obtain rfl : q = fun d => (qr d : EReal) := funext hqr
  obtain rfl : k = fun m d => (kr m d : EReal) := funext fun m => funext (hkr m)
  obtain rfl : w = fun m => (wr m : EReal) := funext hwr
  exact quad_coe qr kr wr

/-- A column of 2048 ones adds up to 2048. -/
theorem sum_ones : (0 : EReal) + ∑ _m : Fin 2048, (1 : EReal) = 2048 := by
  rw [zero_add, Finset.sum_const, Finset.card_univ, Fintype.card_fin, nsmul_one]
  norm_num

/-- The un-normalised result in the reference's arrangement is the specification's, when every entry is real: the
    second-order term by the law above, the first-order term as it stands, and the zeroth-order term because a sum
    from zero of a column of ones is the number of rows. -/
theorem arranged_eq_yAt (q k v : Fin 2048 → Fin 64 → EReal)
    (hq : ∀ n d, ∃ r : ℝ, q n d = (r : EReal)) (hk : ∀ m d, ∃ r : ℝ, k m d = (r : EReal))
    (hv : ∀ m e, ∃ r : ℝ, v m e = (r : EReal)) (n : Fin 2048) (j : Fin 65) :
    (Ideal.ofBits .f32 0x3F000000#32
          * (∑ f : Fin 4096, (q n (hi f) * q n (lo f))
              * (∑ m, (k m (hi f) * k m (lo f)) * Cert.TaylorSpec.withOne v m j))
        + ∑ d, q n d * (∑ m, k m d * Cert.TaylorSpec.withOne v m j))
      + ((0 : EReal) + ∑ m, Cert.TaylorSpec.withOne v m j)
      = Cert.TaylorSpec.yAt q k v n j := by
  have hw : ∀ m, ∃ r : ℝ, Cert.TaylorSpec.withOne v m j = (r : EReal) := by
    intro m
    refine Fin.cases ?_ (fun e => ?_) j
    · exact ⟨1, by simp [Cert.TaylorSpec.withOne]⟩
    · obtain ⟨r, hr⟩ := hv m e
      exact ⟨r, by simp [Cert.TaylorSpec.withOne, hr]⟩
  unfold Cert.TaylorSpec.yAt Cert.TaylorSpec.score
  rw [quad_finite (q n) k (fun m => Cert.TaylorSpec.withOne v m j) (hq n) hk hw]
  congr 1
  refine Fin.cases ?_ (fun e => ?_) j
  · simp only [Cert.TaylorSpec.withOne, Fin.cases_zero]
    exact sum_ones
  · simp only [Cert.TaylorSpec.withOne, Fin.cases_succ, zero_add]

end Cert.ReferenceIdeal.RefValue

end
-- ==== Proof.RefStages.lean ====
/-
  The reference's intermediate arrays read at coordinates.

  The argument holds the queries, keys and values as its three leading slices. Each lemma here says what one of the
  reference's arrays holds at batch b, head h and the remaining coordinates, in terms of the argument's entries:
  the three slices; the values extended by a leading column of the literal one (a concatenation along the last
  axis, read in its first piece at column 0 and in its second piece, one column to the left, elsewhere); and the
  flattened outer products of a key row and of a query row with themselves, whose entry f is the product of the
  entries at the two base-64 digits of f.
-/
import proofs.«129592_j25984552141257_2_alg».proof.Proof.Gen.ReferenceIdeal.Read
import proofs.«129592_j25984552141257_2_alg».proof.Proof.RefAlgebra

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The argument's contents: three slices of 2 × 8 × 2048 × 64 entries. -/
abbrev Arg : Type := (⟨S3x2x8x2048x64, .f32⟩ : BufTy).Contents (Elt Ideal)

/-- Slice s of the argument at batch b, head h, row n, column d, through the slice and the reshape that drops the
    slice's unit axis: the row-major position of (b, h, n, d) has those four digits again. -/
theorem slice_digits (b : Fin 2) (h : Fin 8) (n : Fin 2048) (d : Fin 64) :
    idx_main_v1 (ix4 b h n d) = ix5 (0 : Fin 1) b h n d := by
  funext a
  apply Fin.ext
  have hb := b.isLt; have hh := h.isLt; have hn := n.isLt; have hd := d.isLt
  match a with
  | ⟨0, _⟩ => rfl
  | ⟨1, _⟩ => show (((b.val * 8 + h.val) * 2048 + n.val) * 64 + d.val) / 1048576 % 2 = b.val; omega
  | ⟨2, _⟩ => show (((b.val * 8 + h.val) * 2048 + n.val) * 64 + d.val) / 131072 % 8 = h.val; omega
  | ⟨3, _⟩ => show (((b.val * 8 + h.val) * 2048 + n.val) * 64 + d.val) / 64 % 2048 = n.val; omega
  | ⟨4, _⟩ => show (((b.val * 8 + h.val) * 2048 + n.val) * 64 + d.val) % 64 = d.val; omega

/-- The queries are slice 0 of the argument. -/
theorem read_q (x0 : Arg) (b : Fin 2) (h : Fin 8) (n : Fin 2048) (d : Fin 64) :
    val_main_v1 (F := Ideal) x0 (ix4 b h n d) = x0 (ix5 0 b h n d) := by
  rw [val_main_v1_apply, val_main_v0_apply, slice_digits]
  exact congrArg x0 (funext fun a => Fin.ext (by
    match a with | ⟨0, _⟩ => rfl | ⟨1, _⟩ => rfl | ⟨2, _⟩ => rfl | ⟨3, _⟩ => rfl | ⟨4, _⟩ => rfl))

/-- The keys are slice 1 of the argument. -/
theorem read_k (x0 : Arg) (b : Fin 2) (h : Fin 8) (n : Fin 2048) (d : Fin 64) :
    val_main_v3 (F := Ideal) x0 (ix4 b h n d) = x0 (ix5 1 b h n d) := by
  rw [val_main_v3_apply, val_main_v2_apply]
  rw [show idx_main_v3 (ix4 b h n d) = ix5 (0 : Fin 1) b h n d from slice_digits b h n d]
  exact congrArg x0 (funext fun a => Fin.ext (by
    match a with | ⟨0, _⟩ => rfl | ⟨1, _⟩ => rfl | ⟨2, _⟩ => rfl | ⟨3, _⟩ => rfl | ⟨4, _⟩ => rfl))

/-- The values are slice 2 of the argument. -/
theorem read_v (x0 : Arg) (b : Fin 2) (h : Fin 8) (n : Fin 2048) (d : Fin 64) :
    val_main_v5 (F := Ideal) x0 (ix4 b h n d) = x0 (ix5 2 b h n d) := by
  rw [val_main_v5_apply, val_main_v4_apply]
  rw [show idx_main_v5 (ix4 b h n d) = ix5 (0 : Fin 1) b h n d from slice_digits b h n d]
  exact congrArg x0 (funext fun a => Fin.ext (by
    match a with | ⟨0, _⟩ => rfl | ⟨1, _⟩ => rfl | ⟨2, _⟩ => rfl | ⟨3, _⟩ => rfl | ⟨4, _⟩ => rfl))

/-- The extended values: column 0 is the literal one, column e + 1 is the values' column e. -/
theorem read_v1 (x0 : Arg) (b : Fin 2) (h : Fin 8) (m : Fin 2048) (j : Fin 65) :
    val_main_v7 (F := Ideal) x0 (ix4 b h m j)
      = (Fin.cases (Ideal.ofBits .f32 0x3F800000#32) (fun e => x0 (ix5 2 b h m e)) j : EReal) := by
  unfold val_main_v7
  refine Fin.cases ?_ (fun e => ?_) j
  · rw [concatenate_pair_apply_left 3 _ _ concatenates_S2x8x2048x1_S2x8x2048x64_S2x8x2048x65_d3
      (ix4 b h m (0 : Fin 65)) rfl (ix4 b h m (0 : Fin 1)) (fun c => by
        match c with | ⟨0, _⟩ => rfl | ⟨1, _⟩ => rfl | ⟨2, _⟩ => rfl | ⟨3, _⟩ => rfl)]
    rw [val_main_v6_apply, val_main_cst_apply]
    rfl
  · rw [concatenate_pair_apply_right 3 _ _ concatenates_S2x8x2048x1_S2x8x2048x64_S2x8x2048x65_d3
      (ix4 b h m e.succ) rfl rfl (ix4 b h m e) (fun c hc => by
        match c with | ⟨0, _⟩ => rfl | ⟨1, _⟩ => rfl | ⟨2, _⟩ => rfl | ⟨3, _⟩ => exact absurd rfl hc) rfl]
    rw [read_v]
    rfl

end Cert.ReferenceIdeal.RefValue

end
-- ==== Proof.RefOuter.lean ====
/-
  The two flattened outer products of the reference, read at coordinates.

  The reference multiplies a row (of the keys, of the queries) by itself entry by entry into a 64 × 64 array
  (entry (a, c) is the row's entry a times its entry c, each factor broadcast along the other's axis) and reshapes
  that array to 4096 entries in row-major order; entry f of the result is therefore the product of the row's entries
  at the leading and the trailing base-64 digit of f.
-/
import proofs.«129592_j25984552141257_2_alg».proof.Proof.RefStages

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reshape from 64 × 64 to 4096 read backwards: flattened position f of row m comes from the pair of base-64
    digits of f, the other coordinates unchanged. -/
theorem flat_digits (b : Fin 2) (h : Fin 8) (m : Fin 2048) (f : Fin 4096) :
    idx_main_v13 (ix4 b h m f) = ix5 b h m (hi f) (lo f) := by
  funext a
  apply Fin.ext
  have hb := b.isLt; have hh := h.isLt; have hm := m.isLt; have hf := f.isLt
  match a with
  | ⟨0, _⟩ => show (((b.val * 8 + h.val) * 2048 + m.val) * 4096 + f.val) / 67108864 = b.val; omega
  | ⟨1, _⟩ => show (((b.val * 8 + h.val) * 2048 + m.val) * 4096 + f.val) / 8388608 % 8 = h.val; omega
  | ⟨2, _⟩ => show (((b.val * 8 + h.val) * 2048 + m.val) * 4096 + f.val) / 4096 % 2048 = m.val; omega
  | ⟨3, _⟩ => show (((b.val * 8 + h.val) * 2048 + m.val) * 4096 + f.val) / 64 % 64 = f.val / 64; omega
  | ⟨4, _⟩ => show (((b.val * 8 + h.val) * 2048 + m.val) * 4096 + f.val) % 64 = f.val % 64; omega

/-- Entry (a, c) of the 64 × 64 outer product takes its left factor from column a. -/
theorem left_factor (b : Fin 2) (h : Fin 8) (m : Fin 2048) (a c : Fin 64) :
    idx_main_v8 (idx_main_v10 (ix5 b h m a c)) = ix4 b h m a := by
  funext t
  match t with | ⟨0, _⟩ => rfl | ⟨1, _⟩ => rfl | ⟨2, _⟩ => rfl | ⟨3, _⟩ => rfl

/-- Entry (a, c) of the 64 × 64 outer product takes its right factor from column c. -/
theorem right_factor (b : Fin 2) (h : Fin 8) (m : Fin 2048) (a c : Fin 64) :
    idx_main_v9 (idx_main_v11 (ix5 b h m a c)) = ix4 b h m c := by
  funext t
  match t with | ⟨0, _⟩ => rfl | ⟨1, _⟩ => rfl | ⟨2, _⟩ => rfl | ⟨3, _⟩ => rfl

/-- The flattened outer product of key row m with itself: entry f is the product of the row's entries at the two
    base-64 digits of f. -/
theorem read_kk (x0 : Arg) (b : Fin 2) (h : Fin 8) (m : Fin 2048) (f : Fin 4096) :
    val_main_v13 (F := Ideal) x0 (ix4 b h m f) = x0 (ix5 1 b h m (hi f)) * x0 (ix5 1 b h m (lo f)) := by
  rw [val_main_v13_apply, flat_digits, val_main_v12_apply, val_main_v10_apply, val_main_v8_apply, val_main_v11_apply,
    val_main_v9_apply, left_factor, right_factor, read_k, read_k]
  rfl

/-- The flattened outer product of query row n with itself, likewise. -/
theorem read_qq (x0 : Arg) (b : Fin 2) (h : Fin 8) (n : Fin 2048) (f : Fin 4096) :
    val_main_v21 (F := Ideal) x0 (ix4 b h n f) = x0 (ix5 0 b h n (hi f)) * x0 (ix5 0 b h n (lo f)) := by
  rw [val_main_v21_apply, show idx_main_v21 (ix4 b h n f) = ix5 b h n (hi f) (lo f) from flat_digits b h n f,
    val_main_v20_apply, val_main_v18_apply, val_main_v16_apply, val_main_v19_apply, val_main_v17_apply]
  rw [show idx_main_v16 (idx_main_v18 (ix5 b h n (hi f) (lo f))) = ix4 b h n (hi f) from left_factor b h n (hi f) (lo f),
    show idx_main_v17 (idx_main_v19 (ix5 b h n (hi f) (lo f))) = ix4 b h n (lo f) from right_factor b h n (hi f) (lo f),
    read_q, read_q]
  rfl

end Cert.ReferenceIdeal.RefValue

end
-- ==== Proof.RefSums.lean ====
/-
  The reference's three contractions and its column sums, read at coordinates.

  With q, k, v the three slices of the argument at batch b and head h, and v1 the values extended by a leading column
  of ones, the reference computes: the flattened key products contracted with v1 over the key rows; the flattened
  query products contracted with that over the 4096 flattened positions (the second-order term before its factor
  one half); the keys contracted with v1 over the key rows, then the queries with that over the 64 columns (the
  first-order term); and the sums of v1's columns from a zero initial value (the zeroth-order term). Each is a host
  contraction or a host sum, which over the extended reals is the plain finite sum.
-/
import proofs.«129592_j25984552141257_2_alg».proof.Proof.RefOuter

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The values of batch b, head h, as rows and columns of the argument's slice 2. -/
abbrev vals (x0 : Arg) (b : Fin 2) (h : Fin 8) : Fin 2048 → Fin 64 → EReal := fun m e => x0 (ix5 2 b h m e)

/-- The float literal of the leading column is the number one. -/
theorem one_lit : Ideal.ofBits .f32 0x3F800000#32 = 1 := by
  simp [Ideal.ofBits, Ideal.ieee, -EReal.coe_mul]; norm_num

/-- The extended values are the specification's: a one in front of each row of values. -/
theorem read_withOne (x0 : Arg) (b : Fin 2) (h : Fin 8) (m : Fin 2048) (j : Fin 65) :
    val_main_v7 (F := Ideal) x0 (ix4 b h m j) = Cert.TaylorSpec.withOne (vals x0 b h) m j := by
  rw [read_v1]
  refine Fin.cases ?_ (fun e => ?_) j
  · exact one_lit
  · rfl

/-- The flattened key products contracted with the extended values over the key rows. -/
theorem read_kv2 (x0 : Arg) (b : Fin 2) (h : Fin 8) (f : Fin 4096) (j : Fin 65) :
    val_main_v14 (F := Ideal) x0 (ix4 b h f j)
      = ∑ m : Fin 2048, (x0 (ix5 1 b h m (hi f)) * x0 (ix5 1 b h m (lo f))) * Cert.TaylorSpec.withOne (vals x0 b h) m j := by
  rw [val_main_v14_apply]
  refine Finset.sum_congr rfl fun m _ => ?_
  rw [show lidx_main_v14 (ix4 b h f j) m = ix4 b h m f from funext fun t => by match t with | ⟨0, _⟩ => rfl | ⟨1, _⟩ => rfl | ⟨2, _⟩ => rfl | ⟨3, _⟩ => rfl,
    show ridx_main_v14 (ix4 b h f j) m = ix4 b h m j from funext fun t => by match t with | ⟨0, _⟩ => rfl | ⟨1, _⟩ => rfl | ⟨2, _⟩ => rfl | ⟨3, _⟩ => rfl,
    read_kk, read_withOne]

/-- The second-order term before its factor: the flattened query products contracted with the above. -/
theorem read_second (x0 : Arg) (b : Fin 2) (h : Fin 8) (n : Fin 2048) (j : Fin 65) :
    val_main_v22 (F := Ideal) x0 (ix4 b h n j)
      = ∑ f : Fin 4096, (x0 (ix5 0 b h n (hi f)) * x0 (ix5 0 b h n (lo f)))
          * (∑ m : Fin 2048, (x0 (ix5 1 b h m (hi f)) * x0 (ix5 1 b h m (lo f))) * Cert.TaylorSpec.withOne (vals x0 b h) m j) := by
  rw [val_main_v22_apply]
  refine Finset.sum_congr rfl fun f _ => ?_
  rw [show lidx_main_v22 (ix4 b h n j) f = ix4 b h n f from funext fun t => by match t with | ⟨0, _⟩ => rfl | ⟨1, _⟩ => rfl | ⟨2, _⟩ => rfl | ⟨3, _⟩ => rfl,
    show ridx_main_v22 (ix4 b h n j) f = ix4 b h f j from funext fun t => by match t with | ⟨0, _⟩ => rfl | ⟨1, _⟩ => rfl | ⟨2, _⟩ => rfl | ⟨3, _⟩ => rfl,
    read_qq, read_kv2]

/-- The keys contracted with the extended values over the key rows. -/
theorem read_kv1 (x0 : Arg) (b : Fin 2) (h : Fin 8) (d : Fin 64) (j : Fin 65) :
    val_main_v15 (F := Ideal) x0 (ix4 b h d j)
      = ∑ m : Fin 2048, x0 (ix5 1 b h m d) * Cert.TaylorSpec.withOne (vals x0 b h) m j := by
  rw [val_main_v15_apply]
  refine Finset.sum_congr rfl fun m _ => ?_
  rw [show lidx_main_v15 (ix4 b h d j) m = ix4 b h m d from funext fun t => by match t with | ⟨0, _⟩ => rfl | ⟨1, _⟩ => rfl | ⟨2, _⟩ => rfl | ⟨3, _⟩ => rfl,
    show ridx_main_v15 (ix4 b h d j) m = ix4 b h m j from funext fun t => by match t with | ⟨0, _⟩ => rfl | ⟨1, _⟩ => rfl | ⟨2, _⟩ => rfl | ⟨3, _⟩ => rfl,
    read_k, read_withOne]

/-- The first-order term: the queries contracted with the above over the columns. -/
theorem read_first (x0 : Arg) (b : Fin 2) (h : Fin 8) (n : Fin 2048) (j : Fin 65) :
    val_main_v25 (F := Ideal) x0 (ix4 b h n j)
      = ∑ d : Fin 64, x0 (ix5 0 b h n d) * (∑ m : Fin 2048, x0 (ix5 1 b h m d) * Cert.TaylorSpec.withOne (vals x0 b h) m j) := by
  rw [val_main_v25_apply]
  refine Finset.sum_congr rfl fun d _ => ?_
  rw [show lidx_main_v25 (ix4 b h n j) d = ix4 b h n d from funext fun t => by match t with | ⟨0, _⟩ => rfl | ⟨1, _⟩ => rfl | ⟨2, _⟩ => rfl | ⟨3, _⟩ => rfl,
    show ridx_main_v25 (ix4 b h n j) d = ix4 b h d j from funext fun t => by match t with | ⟨0, _⟩ => rfl | ⟨1, _⟩ => rfl | ⟨2, _⟩ => rfl | ⟨3, _⟩ => rfl,
    read_q, read_kv1]

/-- The zeroth-order term: the sums of the extended values' columns, from zero, the same for every query row. -/
theorem read_zeroth (x0 : Arg) (b : Fin 2) (h : Fin 8) (n : Fin 2048) (j : Fin 65) :
    val_main_v29 (F := Ideal) x0 (ix4 b h n j)
      = (0 : EReal) + ∑ m : Fin 2048, Cert.TaylorSpec.withOne (vals x0 b h) m j := by
  rw [val_main_v29_apply, val_main_v28_apply, val_main_v27_apply, val_main_cst_1_apply, Ideal.ofBits_def,
    Ideal.ofBits_zero_f32]
  refine congrArg (_ + ·) (Finset.sum_congr rfl fun m _ => ?_)
  rw [show idx_main_v27 (idx_main_v28 (idx_main_v29 (ix4 b h n j))) m = ix4 b h m j from funext fun t => by match t with | ⟨0, _⟩ => rfl | ⟨1, _⟩ => rfl | ⟨2, _⟩ => rfl | ⟨3, _⟩ => rfl,
    read_withOne]

end Cert.ReferenceIdeal.RefValue

end
-- ==== Proof.RefRead.lean ====
/-
  The reference's result, read at an index, is the specification.

  At batch b, head h, query row n and column j of 65 the reference's un-normalised array is one half times the
  second-order contraction, plus the first-order contraction, plus the column sum; with every entry of the argument
  real this is the specification's y at (n, j). The result divides columns 1 … 64 of that array by its column 0.
-/
import proofs.«129592_j25984552141257_2_alg».proof.Proof.RefSums

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The un-normalised array at (b, h, n, j) in the reference's arrangement. -/
theorem read_y (x0 : Arg) (b : Fin 2) (h : Fin 8) (n : Fin 2048) (j : Fin 65) :
    val_main_v30 (F := Ideal) x0 (ix4 b h n j)
      = (Ideal.ofBits .f32 0x3F000000#32
            * (∑ f : Fin 4096, (x0 (ix5 0 b h n (hi f)) * x0 (ix5 0 b h n (lo f)))
                * (∑ m : Fin 2048, (x0 (ix5 1 b h m (hi f)) * x0 (ix5 1 b h m (lo f)))
                    * Cert.TaylorSpec.withOne (vals x0 b h) m j))
          + ∑ d : Fin 64, x0 (ix5 0 b h n d)
              * (∑ m : Fin 2048, x0 (ix5 1 b h m d) * Cert.TaylorSpec.withOne (vals x0 b h) m j))
        + ((0 : EReal) + ∑ m : Fin 2048, Cert.TaylorSpec.withOne (vals x0 b h) m j) := by
  rw [val_main_v30_apply, val_main_v26_apply, val_main_v24_apply, val_main_v23_apply, val_main_cst_0_apply,
    read_second, read_first, read_zeroth]
  rfl

/-- With every entry real, the un-normalised array is the specification's y. -/
theorem y_eq_yAt (x0 : Arg) (hfin : ∀ i, ∃ r : ℝ, x0 i = (r : EReal)) (b : Fin 2) (h : Fin 8) (n : Fin 2048)
    (j : Fin 65) :
    val_main_v30 (F := Ideal) x0 (ix4 b h n j)
      = Cert.TaylorSpec.yAt (fun n d => x0 (ix5 0 b h n d)) (fun m d => x0 (ix5 1 b h m d)) (vals x0 b h) n j :=
  (read_y x0 b h n j).trans
    (arranged_eq_yAt (fun n d => x0 (ix5 0 b h n d)) (fun m d => x0 (ix5 1 b h m d)) (vals x0 b h)
      (fun n d => hfin (ix5 0 b h n d)) (fun m d => hfin (ix5 1 b h m d)) (fun m e => hfin (ix5 2 b h m e)) n j)

/-- The reference's result at batch b, head h, row n, column e is the specification's, for an argument all of whose
    entries are real. -/
theorem ref_eq_spec (x0 : (⟨S3x2x8x2048x64, .f32⟩ : BufTy).Contents (Elt Ideal))
    (hfin : ∀ i, ∃ r : ℝ, x0 i = (r : EReal)) (b : Fin 2) (h : Fin 8) (n : Fin 2048) (e : Fin 64) :
    val_main_v34 (F := Ideal) x0 (ValueIdx.ix4 b h n e)
      = Cert.TaylorSpec.result (fun s b h n d => x0 (ValueIdx.ix5 s b h n d)) b h n e := by
  rw [val_main_v34_apply, val_main_v32_apply, val_main_v33_apply, val_main_v31_apply]
  rw [show idx_main_v32 (ix4 b h n e) = ix4 b h n e.succ from funext fun t => Fin.ext (by
        match t with
        | ⟨0, _⟩ => rfl
        | ⟨1, _⟩ => rfl
        | ⟨2, _⟩ => rfl
        | ⟨3, _⟩ => show 1 + e.val = e.val + 1; omega),
    show idx_main_v31 (idx_main_v33 (ix4 b h n e)) = ix4 b h n (0 : Fin 65) from funext fun t => Fin.ext (by
        match t with | ⟨0, _⟩ => rfl | ⟨1, _⟩ => rfl | ⟨2, _⟩ => rfl | ⟨3, _⟩ => rfl),
    y_eq_yAt x0 hfin, y_eq_yAt x0 hfin]
  rfl

end Cert.ReferenceIdeal.RefValue

end
-- ==== Proof.FinInputs.lean ====
/-
  From the precondition "every input is finite" to real entries.

  The precondition compares |x| with +∞ entry by entry and folds the answers with "and", starting from true. If the
  fold is true then every entry's answer is true; and an extended real whose absolute value is below +∞ is neither
  infinity, so it is a real number.
-/
import proofs.«129592_j25984552141257_2_alg».proof.Proof.Gen.Pre_finite_inputs
import Idealize.ShloMosaic.Lib.ReduceAll
import Idealize.ShloMosaic.Lib.ValueIdx
import Idealize.ShloMosaic.PureOps.Ideal.Laws

noncomputable section

namespace Cert.FinInputs

open Idealize.ShloMosaic

/-- The scalar shape has exactly one index. -/
instance scalarIdx : Subsingleton Cert.Pre_finite_inputs.S_.Idx := ⟨fun a b => funext fun d => d.elim0⟩

/-- An extended real whose absolute value compares below the float literal +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | coe r => exact ⟨r, rfl⟩
  | top => simp at hlt

/-- If the precondition holds of an argument, every entry of the argument is a real. -/
theorem finite_of_pre (x0 : FVec Ideal Cert.Pre_finite_inputs.S3x2x8x2048x64 .f32)
    (hpre : Cert.Pre_finite_inputs.fn (F := Ideal) x0 = fun _ => 1#1) :
    ∀ i, ∃ r : ℝ, x0 i = (r : EReal) := by
  intro i
  have h0 := congrFun hpre ValueIdx.ix0
  dsimp only [Cert.Pre_finite_inputs.fn] at h0
  have hi := Host.reduce_andi_all _ _ _ _ _ h0 i
  exact real_of_abs_lt_inf (x0 i) hi

end Cert.FinInputs

end
-- ==== Proof.lean ====
/-
  The certificate's claim: the kernel — second-order "Taylor" attention with the normaliser carried as an extra
  column of ones in the values — equals its reference over the extended reals, on finite inputs.

  For each (batch, head), with queries q, keys k, values v and v1 = [1 | v], both programs compute
      y n j = 1/2 · Σ_m (q_n · k_m)² · v1 m j  +  Σ_d q n d · (Σ_m k m d · v1 m j)  +  Σ_m v1 m j
  and return columns 1 … 64 of y divided by column 0. The kernel forms the scores q_n · k_m and squares them; the
  reference expands the square into the 64 × 64 products q_a q_b k_a k_b and contracts over the pairs (a, b) first.
  The two arrangements agree by distributivity, which holds for real entries: that is where the precondition is used.

  The frames of the two kernel programs are proved over the grid's pairs of points (the first point of a pair fills
  the scratch buffers the second reads); the reference's frame is its run.
-/
import proofs.«129592_j25984552141257_2_alg».proof.Defs
import proofs.«129592_j25984552141257_2_alg».proof.Proof.Gen.Kernel
import proofs.«129592_j25984552141257_2_alg».proof.Proof.Gen.KernelIdeal
import proofs.«129592_j25984552141257_2_alg».proof.Proof.Gen.ReferenceIdeal
import proofs.«129592_j25984552141257_2_alg».proof.Proof.Gen.Pre_finite_inputs
import proofs.«129592_j25984552141257_2_alg».proof.Proof.KBData
import proofs.«129592_j25984552141257_2_alg».proof.Proof.KIFinal
import proofs.«129592_j25984552141257_2_alg».proof.Proof.RefRead
import proofs.«129592_j25984552141257_2_alg».proof.Proof.FinInputs
import Idealize.ShloMosaic.Adequacy
import Idealize.ShloMosaic.Init

noncomputable section

namespace Cert.Proof

open Idealize.ShloMosaic Idealize.SL.Sem Idealize.ShloMosaic.ValueIdx

/-- The kernel as printed runs and leaves its argument unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification of the argument at every entry of the result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.resultArr m c, Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, hagree c]
  have hfin := Cert.FinInputs.finite_of_pre _ (hpre c)
  funext i
  obtain ⟨b, h, n, e, rfl⟩ : ∃ (b : Fin 2) (h : Fin 8) (n : Fin 2048) (e : Fin 64), i = ix4 b h n e := ⟨i 0, i 1, i 2, i 3, eq_ix4 i⟩
  rw [Cert.ReferenceIdeal.RefValue.ref_eq_spec _ hfin b h n e]
  exact (Cert.KernelIdeal.Gen.unflat_apply m c b h n e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
